-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S200000x2 : Shape := ⟨2, ![200000, 2]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x256 .f32) (main_arg10 : FVec F S128 .f32) (main_arg11 : FVec F S1x128 .f32) (main_arg12 : FVec F S1 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S1x128 .f32 := Host.absf main_arg11
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128x128 .f32) (main_arg7 : FVec F S128x128 .f32) (main_arg8 : FVec F S128 .f32) (main_arg9 : FVec F S128x256 .f32) (main_arg10 : FVec F S128 .f32) (main_arg11 : FVec F S1x128 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x500000 32) (main_arg2 : IVec S200000x2 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x256 .f32) (main_arg10 : FVec F S128 .f32) (main_arg11 : FVec F S1x128 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x500000 : Shape := ⟨2, ![2, 500000]⟩
abbrev S200000x2 : Shape := ⟨2, ![200000, 2]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S50000x1 : Shape := ⟨2, ![50000, 1]⟩
abbrev S5000x128 : Shape := ⟨2, ![5000, 128]⟩
abbrev S200000x1 : Shape := ⟨2, ![200000, 1]⟩
abbrev S200000 : Shape := ⟨1, ![200000]⟩
abbrev S200000x128 : Shape := ⟨2, ![200000, 128]⟩
abbrev S128x1 : Shape := ⟨2, ![128, 1]⟩
abbrev S5000x1 : Shape := ⟨2, ![5000, 1]⟩
abbrev S1x1 : Shape := ⟨2, ![1, 1]⟩

abbrev nBuf : Space → Nat
  | .hbm => 100
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S200000x2, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S1x128, .f32⟩
  | .hbm, ⟨12, _⟩ => ⟨S1, .f32⟩
  | .hbm, ⟨13, _⟩ => ⟨S1x500000, .i32⟩
  | .hbm, ⟨14, _⟩ => ⟨S500000, .i32⟩
  | .hbm, ⟨15, _⟩ => ⟨S1x500000, .i32⟩
  | .hbm, ⟨16, _⟩ => ⟨S500000, .i32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x128, .f32⟩
  | .hbm, ⟨26, _⟩ => ⟨S_, .f32⟩
  | .hbm, ⟨27, _⟩ => ⟨S50000x128, .f32⟩
  | .hbm, ⟨28, _⟩ => ⟨S500000x1, .i32⟩
  | .hbm, ⟨29, _⟩ => ⟨S50000x128, .f32⟩
  | .hbm, ⟨30, _⟩ => ⟨S_, .f32⟩
  | .hbm, ⟨31, _⟩ => ⟨S500000x1, .f32⟩
  | .hbm, ⟨32, _⟩ => ⟨S_, .f32⟩
  | .hbm, ⟨33, _⟩ => ⟨S50000x1, .f32⟩
  | .hbm, ⟨34, _⟩ => ⟨S500000x1, .i32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S128x128, .f32⟩
  | .hbm, ⟨43, _⟩ => ⟨S50000x128, .f32⟩
  | .hbm, ⟨44, _⟩ => ⟨S_, .i32⟩
  | .hbm, ⟨45, _⟩ => ⟨S500000, .i32⟩
  | .hbm, ⟨46, _⟩ => ⟨S500000, .i1⟩
  | .hbm, ⟨47, _⟩ => ⟨S_, .i32⟩
  | .hbm, ⟨48, _⟩ => ⟨S500000, .i32⟩
  | .hbm, ⟨49, _⟩ => ⟨S500000, .i32⟩
  | .hbm, ⟨50, _⟩ => ⟨S500000, .i32⟩
  | .hbm, ⟨51, _⟩ => ⟨S500000x1, .i32⟩
  | .hbm, ⟨52, _⟩ => ⟨S500000x128, .f32⟩
  | .hbm, ⟨53, _⟩ => ⟨S_, .f32⟩
  | .hbm, ⟨54, _⟩ => ⟨S50000x128, .f32⟩
  | .hbm, ⟨55, _⟩ => ⟨S500000x1, .i32⟩
  | .hbm, ⟨56, _⟩ => ⟨S50000x128, .f32⟩
  | .hbm, ⟨57, _⟩ => ⟨S_, .f32⟩
  | .hbm, ⟨58, _⟩ => ⟨S500000x1, .f32⟩
  | .hbm, ⟨59, _⟩ => ⟨S_, .f32⟩
  | .hbm, ⟨60, _⟩ => ⟨S50000x1, .f32⟩
  | .hbm, ⟨61, _⟩ => ⟨S500000x1, .i32⟩
  | .hbm, ⟨62, _⟩ => ⟨S50000x1, .f32⟩
  | .hbm, ⟨63, _⟩ => ⟨S_, .f32⟩
  | .hbm, ⟨64, _⟩ => ⟨S50000x1, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S128x128, .f32⟩
  | .hbm, ⟨69, _⟩ => ⟨S128x128, .f32⟩
  | .hbm, ⟨70, _⟩ => ⟨S50000x128, .f32⟩
  | .hbm, ⟨71, _⟩ => ⟨S200000x1, .i32⟩
  | .hbm, ⟨72, _⟩ => ⟨S200000, .i32⟩
  | .hbm, ⟨73, _⟩ => ⟨S200000x1, .i32⟩
  | .hbm, ⟨74, _⟩ => ⟨S200000, .i32⟩
  | .hbm, ⟨75, _⟩ => ⟨S_, .i32⟩
  | .hbm, ⟨76, _⟩ => ⟨S200000, .i32⟩
  | .hbm, ⟨77, _⟩ => ⟨S200000, .i1⟩
  | .hbm, ⟨78, _⟩ => ⟨S_, .i32⟩
  | .hbm, ⟨79, _⟩ => ⟨S200000, .i32⟩
  | .hbm, ⟨80, _⟩ => ⟨S200000, .i32⟩
  | .hbm, ⟨81, _⟩ => ⟨S200000, .i32⟩
  | .hbm, ⟨82, _⟩ => ⟨S200000x1, .i32⟩
  | .hbm, ⟨83, _⟩ => ⟨S200000x128, .f32⟩
  | .hbm, ⟨84, _⟩ => ⟨S_, .i32⟩
  | .hbm, ⟨85, _⟩ => ⟨S200000, .i32⟩
  | .hbm, ⟨86, _⟩ => ⟨S200000, .i1⟩
  | .hbm, ⟨87, _⟩ => ⟨S_, .i32⟩
  | .hbm, ⟨88, _⟩ => ⟨S200000, .i32⟩
  | .hbm, ⟨89, _⟩ => ⟨S200000, .i32⟩
  | .hbm, ⟨90, _⟩ => ⟨S200000, .i32⟩
  | .hbm, ⟨91, _⟩ => ⟨S200000x1, .i32⟩
  | .hbm, ⟨92, _⟩ => ⟨S200000x128, .f32⟩
  | .hbm, ⟨93, _⟩ => ⟨S128x128, .f32⟩
  | .hbm, ⟨94, _⟩ => ⟨S128x128, .f32⟩
  | .hbm, ⟨95, _⟩ => ⟨S128x128, .f32⟩
  | .hbm, ⟨96, _⟩ => ⟨S128x128, .f32⟩
  | .hbm, ⟨97, _⟩ => ⟨S128x1, .f32⟩
  | .hbm, ⟨98, _⟩ => ⟨S200000x1, .f32⟩
  | .hbm, ⟨99, _⟩ => ⟨S200000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S128x1, .f32⟩
  | .local _ .vmem, ⟨26, _⟩ => ⟨S1, .f32⟩
  | .local _ .vmem, ⟨27, _⟩ => ⟨S5000x1, .f32⟩
  | .local _ .vmem, ⟨28, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S_S500000x1 : S_.BroadcastsInDim S500000x1 (![] : Fin 0 → Fin S500000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S_S200000 : S_.BroadcastsInDim S200000 (![] : Fin 0 → Fin S200000.rank)
  bcast_S200000_S200000x1_0 : S200000.BroadcastsInDim S200000x1 (![0] : Fin 1 → Fin S200000x1.rank)
  slices_S128x256_S128x128_0_0 : S128x256.Slices ![0, 0] S128x128
  slices_S128x256_S128x128_0_128 : S128x256.Slices ![0, 128] S128x128
  transposes_S1x128_S128x1_1_0 : S1x128.Transposes [1, 0] S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000x1_S500000x1_S500000x1_1_0_0_1_wf : ScatterDims.WF S50000x1 S500000x1 S500000x1 [1] [0] [0] 1
  dot_S5000x128_S128x128_S5000x128_1_0_0_1_n_n_wf : DotDims.WF S5000x128 S128x128 S5000x128 [1] [0] [0] [1] [] []
  gather_S50000x128_S200000x1_S200000x128_1_0_n_n_0_1_1128_wf : GatherDims.WF S50000x128 S200000x1 S200000x128 [1] [0] [] [0] [] 1 ![1, 128]
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S200000x128.size a
  hwx2_0 : ∀ i : grid2.Coords, EltTy.bits .f32 = 32 ∨ (Rect.block (s := S200000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S200000x128.size a
  hwx2_1 : ∀ i : grid2.Coords, EltTy.bits .f32 = 32 ∨ (Rect.block (s := S200000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .f32 = 32 ∨ (Rect.block (s := S128x1) S128x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1.size a ≤ S1.size a
  hwx2_6 : ∀ i : grid2.Coords, EltTy.bits .f32 = 32 ∨ (Rect.block (s := S1) S1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x1.size a ≤ S200000x1.size a
  hwx2_7 : ∀ i : grid2.Coords, EltTy.bits .f32 = 32 ∨ (Rect.block (s := S200000x1) S5000x1.size (cc2_transform_7 i) (hinb2_7 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000x1_S500000x1_S500000x1_1_0_0_1 : ScatterDims S50000x1 S500000x1 S500000x1 where
  updateWindowDims := [1]
  insertedWindowDims := [0]
  scatterDimsToOperandDims := [0]
  indexVectorDim := 1
  wf := scatter_S50000x1_S500000x1_S500000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v69) S5000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S200000x2 : Shape := ⟨2, ![200000, 2]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S50000x1 : Shape := ⟨2, ![50000, 1]⟩
abbrev S200000x1 : Shape := ⟨2, ![200000, 1]⟩
abbrev S200000 : Shape := ⟨1, ![200000]⟩
abbrev S200000x128 : Shape := ⟨2, ![200000, 128]⟩
abbrev S200000x256 : Shape := ⟨2, ![200000, 256]⟩
abbrev S256x128 : Shape := ⟨2, ![256, 128]⟩
abbrev S128x1 : Shape := ⟨2, ![128, 1]⟩
abbrev S1x1 : Shape := ⟨2, ![1, 1]⟩

abbrev nBuf : Space → Nat
  | .hbm => 132
  | .vmem => 0
  | .smem => 0
  | _ => 0

abbrev hbmTy0_0 (i : Nat) : BufTy := match i % 128 with
  | 0 => ⟨S50000x128, .f32⟩
  | 1 => ⟨S2x500000, .i32⟩
  | 2 => ⟨S200000x2, .i32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x256, .f32⟩
  | 10 => ⟨S128, .f32⟩
  | 11 => ⟨S1x128, .f32⟩
  | 12 => ⟨S1, .f32⟩
  | 13 => ⟨S1x500000, .i32⟩
  | 14 => ⟨S500000, .i32⟩
  | 15 => ⟨S1x500000, .i32⟩
  | 16 => ⟨S500000, .i32⟩
  | 17 => ⟨S_, .i32⟩
  | 18 => ⟨S500000, .i32⟩
  | 19 => ⟨S500000, .i1⟩
  | 20 => ⟨S_, .i32⟩
  | 21 => ⟨S500000, .i32⟩
  | 22 => ⟨S500000, .i32⟩
  | 23 => ⟨S500000, .i32⟩
  | 24 => ⟨S500000x1, .i32⟩
  | 25 => ⟨S500000x128, .f32⟩
  | 26 => ⟨S_, .f32⟩
  | 27 => ⟨S50000x128, .f32⟩
  | 28 => ⟨S500000x1, .i32⟩
  | 29 => ⟨S50000x128, .f32⟩
  | 30 => ⟨S_, .f32⟩
  | 31 => ⟨S500000x1, .f32⟩
  | 32 => ⟨S_, .f32⟩
  | 33 => ⟨S50000x1, .f32⟩
  | 34 => ⟨S500000x1, .i32⟩
  | 35 => ⟨S50000x1, .f32⟩
  | 36 => ⟨S_, .f32⟩
  | 37 => ⟨S50000x1, .f32⟩
  | 38 => ⟨S50000x1, .f32⟩
  | 39 => ⟨S50000x128, .f32⟩
  | 40 => ⟨S50000x128, .f32⟩
  | 41 => ⟨S128x128, .f32⟩
  | 42 => ⟨S50000x128, .f32⟩
  | 43 => ⟨S128x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S500000x128, .f32⟩
  | 61 => ⟨S_, .f32⟩
  | 62 => ⟨S50000x128, .f32⟩
  | 63 => ⟨S500000x1, .i32⟩
  | 64 => ⟨S50000x128, .f32⟩
  | 65 => ⟨S_, .f32⟩
  | 66 => ⟨S500000x1, .f32⟩
  | 67 => ⟨S_, .f32⟩
  | 68 => ⟨S50000x1, .f32⟩
  | 69 => ⟨S500000x1, .i32⟩
  | 70 => ⟨S50000x1, .f32⟩
  | 71 => ⟨S_, .f32⟩
  | 72 => ⟨S50000x1, .f32⟩
  | 73 => ⟨S50000x1, .f32⟩
  | 74 => ⟨S50000x128, .f32⟩
  | 75 => ⟨S50000x128, .f32⟩
  | 76 => ⟨S128x128, .f32⟩
  | 77 => ⟨S50000x128, .f32⟩
  | 78 => ⟨S128x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S200000x1, .i32⟩
  | 88 => ⟨S200000, .i32⟩
  | 89 => ⟨S_, .i32⟩
  | 90 => ⟨S200000, .i32⟩
  | 91 => ⟨S200000, .i1⟩
  | 92 => ⟨S_, .i32⟩
  | 93 => ⟨S200000, .i32⟩
  | 94 => ⟨S200000, .i32⟩
  | 95 => ⟨S200000, .i32⟩
  | 96 => ⟨S200000x1, .i32⟩
  | 97 => ⟨S200000x128, .f32⟩
  | 98 => ⟨S200000x1, .i32⟩
  | 99 => ⟨S200000, .i32⟩
  | 100 => ⟨S_, .i32⟩
  | 101 => ⟨S200000, .i32⟩
  | 102 => ⟨S200000, .i1⟩
  | 103 => ⟨S_, .i32⟩
  | 104 => ⟨S200000, .i32⟩
  | 105 => ⟨S200000, .i32⟩
  | 106 => ⟨S200000, .i32⟩
  | 107 => ⟨S200000x1, .i32⟩
  | 108 => ⟨S200000x128, .f32⟩
  | 109 => ⟨S200000x256, .f32⟩
  | 110 => ⟨S256x128, .f32⟩
  | 111 => ⟨S200000x128, .f32⟩
  | 112 => ⟨S1x128, .f32⟩
  | 113 => ⟨S200000x128, .f32⟩
  | 114 => ⟨S200000x128, .f32⟩
  | 115 => ⟨S_, .f32⟩
  | 116 => ⟨S200000x128, .f32⟩
  | 117 => ⟨S200000x128, .f32⟩
  | 118 => ⟨S128x1, .f32⟩
  | 119 => ⟨S200000x1, .f32⟩
  | 120 => ⟨S1x1, .f32⟩
  | 121 => ⟨S200000x1, .f32⟩
  | 122 => ⟨S200000x1, .f32⟩
  | 123 => ⟨S200000x1, .f32⟩
  | 124 => ⟨S200000x1, .f32⟩
  | 125 => ⟨S_, .f32⟩
  | 126 => ⟨S200000x1, .f32⟩
  | 127 => ⟨S200000x1, .f32⟩
  | _ => ⟨S50000x128, .f32⟩

abbrev hbmTy0_1 (i : Nat) : BufTy := match i % 128 with
  | 0 => ⟨S_, .f32⟩
  | 1 => ⟨S200000x1, .f32⟩
  | 2 => ⟨S200000x1, .f32⟩
  | 3 => ⟨S200000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call1_cst : Ref sig .tc := ⟨.hbm, 84, rfl⟩
abbrev main_call1_v0 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_10 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_12 : Ref sig .tc := ⟨.hbm, 100, rfl⟩
abbrev main_v69 : Ref sig .tc := ⟨.hbm, 101, rfl⟩
abbrev main_v70 : Ref sig .tc := ⟨.hbm, 102, rfl⟩
abbrev main_c_13 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_call2_cst : Ref sig .tc := ⟨.hbm, 115, rfl⟩
abbrev main_call2_v0 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_14 : Ref sig .tc := ⟨.hbm, 125, rfl⟩
abbrev main_v90 : Ref sig .tc := ⟨.hbm, 126, rfl⟩
abbrev main_v91 : Ref sig .tc := ⟨.hbm, 127, rfl⟩
abbrev main_cst_15 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S_S500000x1 : S_.BroadcastsInDim S500000x1 (![] : Fin 0 → Fin S500000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S200000x2_S200000x1_0_0 : S200000x2.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S200000x2_S200000x1_0_1 : S200000x2.Slices ![0, 1] S200000x1
  concatenates_S200000x128_S200000x128_S200000x256_d1 : Shape.Concatenates [S200000x128, S200000x128] S200000x256 1
  transposes_S128x256_S256x128_1_0 : S128x256.Transposes [1, 0] S256x128
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  transposes_S1x128_S128x1_1_0 : S1x128.Transposes [1, 0] S128x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000x1_S500000x1_S500000x1_1_0_0_1_wf : ScatterDims.WF S50000x1 S500000x1 S500000x1 [1] [0] [0] 1
  dot_S50000x128_S128x128_S50000x128_1_0_0_1_n_n_wf : DotDims.WF S50000x128 S128x128 S50000x128 [1] [0] [0] [1] [] []
  gather_S50000x128_S200000x1_S200000x128_1_0_n_n_0_1_1128_wf : GatherDims.WF S50000x128 S200000x1 S200000x128 [1] [0] [] [0] [] 1 ![1, 128]
  dot_S200000x256_S256x128_S200000x128_1_0_0_1_n_n_wf : DotDims.WF S200000x256 S256x128 S200000x128 [1] [0] [0] [1] [] []
  dot_S200000x128_S128x1_S200000x1_1_0_0_1_n_n_wf : DotDims.WF S200000x128 S128x1 S200000x1 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000x1_S500000x1_S500000x1_1_0_0_1 : ScatterDims S50000x1 S500000x1 S500000x1 where
  updateWindowDims := [1]
  insertedWindowDims := [0]
  scatterDimsToOperandDims := [0]
  indexVectorDim := 1
  wf := scatter_S50000x1_S500000x1_S500000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.KRun.lean ====
import proofs.«104326_j68582037782752_1_alg».proof.Proof.Gen.KernelIdeal.Frame

/-!
# The kernel program's run, with its result named

The program is three kernel regions among four stretches of host operations. The generated frame runs it segment by
segment and ends with every unscoped buffer of a core at the contents of the last boundary (the fold W7 of the generated
module: host operations applied in order, each region's arrays replaced by what its write-backs leave). Here the same
launch is read once more, keeping, beside the unchanged arguments, the result buffer: it ends at W7's value there.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the thirteen arguments end as launched. -/
theorem run_named : θ_run defs (onTc (τ := τ) (main (F := F))) ⟨m, fun _ => 0, ρ⟩ (fun r => ∀ c : Dev nD,
      r.2.mem ((c.tc : Thread nD τ).loc main_v70) = W7 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v70 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c)⟩)

end Cert.KernelIdeal.Gen

end
-- ==== Proof.Spec.lean ====
import proofs.«104326_j68582037782752_1_alg».proof.Proof.Gen.ReferenceIdeal
import Idealize.ShloMosaic.PureOps.Ideal
import Idealize.ShloMosaic.Lib.ValueIdx

/-!
# The function both programs compute

Two rounds of neighbourhood averaging followed by a dense layer, then a two-layer scorer on pairs of nodes.

* meanAgg h e: for every node v, the sum of the rows h[src] over the edges (src, dst) of e with dst = v,
  divided by max (number of such edges) 1 (rows gathered, scatter-added, divided).
* rowLayer: one entry of a dense layer, max (a · Wlᵀ[:, c] + x · Wrᵀ[:, c] + b[c]) 0.
* rowScore: one pair's score, logistic (Σ_j max (a · W3aᵀ[:, j] + b · W3bᵀ[:, j] + b3[j]) 0 · W4ᵀ[j] + b4).
* whole: the composition, read on the thirteen arguments.

Sums over the extended reals are sums in a commutative monoid: no finiteness is used anywhere.
-/

noncomputable section

namespace Cert.Sage

open Idealize.ShloMosaic Idealize.ShloMosaic.ValueIdx Cert.ReferenceIdeal Cert.ReferenceIdeal.Gen

/-- The zero every rectifier compares with. -/
abbrev zeroF : EReal := Ideal.ofBits .f32 0x00000000#32

/-! ## Rows -/

/-- One entry of a dense layer: the two row vectors against column c of the two (transposed) weight matrices, plus
    the bias, rectified. -/
def rowLayer (ar xr : Fin 128 → EReal) (wlT wrT : FVec Ideal S128x128 .f32) (b : FVec Ideal S128 .f32) (c : Fin 128) : EReal :=
  max (((∑ k : Fin 128, ar k * wlT (ix2 k c)) + (∑ k : Fin 128, xr k * wrT (ix2 k c))) + b (ix1 c)) zeroF

/-- One pair's score: the hidden row (a dense layer of the two gathered rows) against the output column, plus the
    output bias, through the logistic function. -/
def rowScore (ar br : Fin 128 → EReal) (w3aT w3bT : FVec Ideal S128x128 .f32) (b3 : FVec Ideal S128 .f32)
    (w4T : FVec Ideal S128x1 .f32) (b4 : FVec Ideal S1 .f32) : EReal :=
  Ideal.logistic ((∑ j : Fin 128, rowLayer ar br w3aT w3bT b3 j * w4T (ix2 j (0 : Fin 1))) + b4 (ix1 (0 : Fin 1)))

/-! ## Whole arrays, over transposed weights -/

/-- The dense layer on whole arrays, the weights given transposed ([k, c]). -/
def layerT (agg x : FVec Ideal S50000x128 .f32) (wlT wrT : FVec Ideal S128x128 .f32) (b : FVec Ideal S128 .f32) :
    FVec Ideal S50000x128 .f32 :=
  fun i => rowLayer (fun k => agg (ix2 (⟨(i 0).val, idx2_lt0 i⟩ : Fin 50000) k)) (fun k => x (ix2 (⟨(i 0).val, idx2_lt0 i⟩ : Fin 50000) k))
    wlT wrT b ⟨(i 1).val, idx2_lt1 i⟩

/-- The scorer on whole arrays, the weights given transposed. -/
def scoreT (a b : FVec Ideal S200000x128 .f32) (w3aT w3bT : FVec Ideal S128x128 .f32) (b3 : FVec Ideal S128 .f32)
    (w4T : FVec Ideal S128x1 .f32) (b4 : FVec Ideal S1 .f32) : FVec Ideal S200000x1 .f32 :=
  fun i => rowScore (fun k => a (ix2 (⟨(i 0).val, idx2_lt0 i⟩ : Fin 200000) k)) (fun k => b (ix2 (⟨(i 0).val, idx2_lt0 i⟩ : Fin 200000) k))
    w3aT w3bT b3 w4T b4

/-! ## The weights as given, read transposed -/

/-- A square weight matrix read transposed. -/
def tr128 (w : FVec Ideal S128x128 .f32) : FVec Ideal S128x128 .f32 :=
  fun i => w (ix2 (⟨(i 1).val, idx2_lt1 i⟩ : Fin 128) (⟨(i 0).val, idx2_lt0 i⟩ : Fin 128))

/-- The first 128 input columns of the scorer's weight, read transposed. -/
def w3lo (w : FVec Ideal S128x256 .f32) : FVec Ideal S128x128 .f32 :=
  fun i => w (ix2 (⟨(i 1).val, idx2_lt1 i⟩ : Fin 128) (⟨(i 0).val, Nat.lt_trans (idx2_lt0 i) (by decide)⟩ : Fin 256))

/-- The last 128 input columns of the scorer's weight, read transposed. -/
def w3hi (w : FVec Ideal S128x256 .f32) : FVec Ideal S128x128 .f32 :=
  fun i => w (ix2 (⟨(i 1).val, idx2_lt1 i⟩ : Fin 128) (⟨128 + (i 0).val, by have := idx2_lt0 i; omega⟩ : Fin 256))

/-- The output weight (one row) read as a column. -/
def trCol (w : FVec Ideal S1x128 .f32) : FVec Ideal S128x1 .f32 :=
  fun i => w (ix2 (0 : Fin 1) (⟨(i 0).val, idx2_lt0 i⟩ : Fin 128))

/-- The dense layer on the weights as given. -/
def layer (agg x : FVec Ideal S50000x128 .f32) (wl wr : FVec Ideal S128x128 .f32) (b : FVec Ideal S128 .f32) :
    FVec Ideal S50000x128 .f32 :=
  layerT agg x (tr128 wl) (tr128 wr) b

/-- The scorer on the weights as given. -/
def score (a b : FVec Ideal S200000x128 .f32) (w3 : FVec Ideal S128x256 .f32) (b3 : FVec Ideal S128 .f32)
    (w4 : FVec Ideal S1x128 .f32) (b4 : FVec Ideal S1 .f32) : FVec Ideal S200000x1 .f32 :=
  scoreT a b (w3lo w3) (w3hi w3) b3 (trCol w4) b4

/-! ## The index columns and the neighbourhood mean (host operations, never opened) -/

/-- The edges' source nodes. -/
def edgeSrc (e : IVec S2x500000 32) : IVec S500000 32 :=
  shapeCast _ (extractStridedSlice S1x500000 ![0, 0] e slices_S2x500000_S1x500000_0_0) shapeCasts_S1x500000_S500000

/-- The edges' destination nodes. -/
def edgeDst (e : IVec S2x500000 32) : IVec S500000 32 :=
  shapeCast _ (extractStridedSlice S1x500000 ![1, 0] e slices_S2x500000_S1x500000_1_0) shapeCasts_S1x500000_S500000

/-- A negative node number counts from the end. -/
def wrapEdge (v : IVec S500000 32) : IVec S500000 32 :=
  select (cmpi .slt v (broadcastInDim S500000 ![] bcast_S_S500000 (constantI S_ 32 0#32)))
    (addi v (broadcastInDim S500000 ![] bcast_S_S500000 (constantI S_ 32 50000#32))) v

/-- The source nodes as a column of start indices. -/
def srcCol (e : IVec S2x500000 32) : IVec S500000x1 32 :=
  broadcastInDim S500000x1 ![0] bcast_S500000_S500000x1_0 (wrapEdge (edgeSrc e))

/-- The destination nodes as a column of scatter indices. -/
def dstCol (e : IVec S2x500000 32) : IVec S500000x1 32 :=
  broadcastInDim S500000x1 ![0] bcast_S500000_S500000x1_0 (edgeDst e)

/-- The mean of the neighbours' rows: rows gathered by source, summed by destination, divided by the clamped count. -/
def meanAgg (h : FVec Ideal S50000x128 .f32) (e : IVec S2x500000 32) : FVec Ideal S50000x128 .f32 :=
  Host.divf
    (Host.scatterAdd scatter_S50000x128_S500000x1_S500000x128_1_0_0_1
      (broadcastInDim S50000x128 ![] bcast_S_S50000x128 (constant S_ .f32 0x00000000#32)) (dstCol e)
      (Host.gather gather_S50000x128_S500000x1_S500000x128_1_0_n_n_0_1_1128 h (srcCol e)))
    (broadcastInDim S50000x128 ![0, 1] bcast_S50000x1_S50000x128_0_1
      (maximumf
        (Host.scatterAdd scatter_S50000x1_S500000x1_S500000x1_1_0_0_1
          (broadcastInDim S50000x1 ![] bcast_S_S50000x1 (constant S_ .f32 0x00000000#32)) (dstCol e)
          (broadcastInDim S500000x1 ![] bcast_S_S500000x1 (constant S_ .f32 0x3F800000#32)))
        (broadcastInDim S50000x1 ![] bcast_S_S50000x1 (constant S_ .f32 0x3F800000#32))))

/-- A negative node number counts from the end (pairs). -/
def wrapPair (v : IVec S200000 32) : IVec S200000 32 :=
  select (cmpi .slt v (broadcastInDim S200000 ![] bcast_S_S200000 (constantI S_ 32 0#32)))
    (addi v (broadcastInDim S200000 ![] bcast_S_S200000 (constantI S_ 32 50000#32))) v

/-- The pairs' first nodes as a column of start indices. -/
def pairCol0 (p : IVec S200000x2 32) : IVec S200000x1 32 :=
  broadcastInDim S200000x1 ![0] bcast_S200000_S200000x1_0
    (wrapPair (shapeCast _ (extractStridedSlice S200000x1 ![0, 0] p slices_S200000x2_S200000x1_0_0) shapeCasts_S200000x1_S200000))

/-- The pairs' second nodes as a column of start indices. -/
def pairCol1 (p : IVec S200000x2 32) : IVec S200000x1 32 :=
  broadcastInDim S200000x1 ![0] bcast_S200000_S200000x1_0
    (wrapPair (shapeCast _ (extractStridedSlice S200000x1 ![0, 1] p slices_S200000x2_S200000x1_0_1) shapeCasts_S200000x1_S200000))

/-- The rows of h at a column of node numbers. -/
def pick (h : FVec Ideal S50000x128 .f32) (col : IVec S200000x1 32) : FVec Ideal S200000x128 .f32 :=
  Host.gather gather_S50000x128_S200000x1_S200000x128_1_0_n_n_0_1_1128 h col

/-! ## The whole function -/

/-- The node features after one round from features h. -/
def round (h : FVec Ideal S50000x128 .f32) (e : IVec S2x500000 32) (wl wr : FVec Ideal S128x128 .f32) (b : FVec Ideal S128 .f32) :
    FVec Ideal S50000x128 .f32 :=
  layer (meanAgg h e) h wl wr b

/-- The pair scores from the node features after the second round. -/
def scores (h2 : FVec Ideal S50000x128 .f32) (p : IVec S200000x2 32)
    (w3 : FVec Ideal S128x256 .f32) (b3 : FVec Ideal S128 .f32) (w4 : FVec Ideal S1x128 .f32) (b4 : FVec Ideal S1 .f32) :
    FVec Ideal S200000 .f32 :=
  shapeCast _ (score (pick h2 (pairCol0 p)) (pick h2 (pairCol1 p)) w3 b3 w4 b4) shapeCasts_S200000x1_S200000

/-- The pair scores as a function of the thirteen arguments. -/
def whole (x : FVec Ideal S50000x128 .f32) (e : IVec S2x500000 32) (p : IVec S200000x2 32)
    (wl1 wr1 : FVec Ideal S128x128 .f32) (b1 : FVec Ideal S128 .f32)
    (wl2 wr2 : FVec Ideal S128x128 .f32) (b2 : FVec Ideal S128 .f32)
    (w3 : FVec Ideal S128x256 .f32) (b3 : FVec Ideal S128 .f32) (w4 : FVec Ideal S1x128 .f32) (b4 : FVec Ideal S1 .f32) :
    FVec Ideal S200000 .f32 :=
  scores (round (round x e wl1 wr1 b1) e wl2 wr2 b2) p w3 b3 w4 b4

end Cert.Sage

end
-- ==== Proof.KBody0.lean ====
import proofs.«104326_j68582037782752_1_alg».proof.Proof.Gen.KernelIdeal.Frame
import proofs.«104326_j68582037782752_1_alg».proof.Proof.Spec
import Idealize.ShloMosaic.Lib.Pipeline.Value
import Idealize.ShloMosaic.Lib.ValueIdx
import Idealize.ShloMosaic.PureOps.Ideal.Laws

/-!
# The first dense-layer body read at an index

The body loads its five blocks whole (two [5000,128] blocks of rows, two [128,128] weights given transposed, a [128]
bias), forms max (a · Wl + x · Wr + b) 0 in one pure term and stores it whole. So the output block at (r, c) is
`rowLayer` of row r of the two row blocks, the two weights and the bias, at column c:

* a whole-block load through the rectangle at offset zero is the block, and one whole-block store leaves its payload;
* each product into the zero accumulator, read at (r, c), is Σ_k a[r,k] · w[k,c] (the contraction index set is Fin 128);
* the bias, reshaped to a row and broadcast down the rows, read at (r, c), is b[c];
* rounding to bf16 and a shape cast to the same shape are the identity on ideal values.
-/

noncomputable section
namespace Cert.Sage
open Idealize.ShloMosaic Idealize.ShloMosaic.ValueIdx
open Cert.KernelIdeal Cert.KernelIdeal.Gen

private theorem hz2 : (![0, 0] : Fin 2 → Nat) = fun _ => 0 := funext fun a => by fin_cases a <;> rfl
private theorem hz1 : (![0] : Fin 1 → Nat) = fun _ => 0 := funext fun a => by fin_cases a <;> rfl

/-! ## The square product's operand indices -/

private theorem dotA_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
private theorem dotA_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem dotA_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem dotA_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A [5000,128] × [128,128] product into the zero accumulator, read at (r, c): row r of the left operand against
    column c of the right one, Σ_k a[r,k] · w[k,c]. -/
private theorem matmulA_apply {φ₁ φ₂ : FTy} (a : FVec Ideal S5000x128 φ₁) (w : FVec Ideal S128x128 φ₂) (r : Fin 5000) (c : Fin 128) :
    matmul (F := Ideal) dot_S5000x128_S128x128_S5000x128_1_0_0_1_n_n none a w (constant S5000x128 .f32 0x00000000#32) (ix2 r c)
      = ∑ k : Fin 128, a (ix2 r k) * w (ix2 k c) := by
  refine (Ideal.matmul_constant_zero_apply dot_S5000x128_S128x128_S5000x128_1_0_0_1_n_n none a w (ix2 r c)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r c)
      ((contrEquiv1 dot_S5000x128_S128x128_S5000x128_1_0_0_1_n_n 128 rfl rfl).symm k) = ix2 r k :=
    funext fun a => Fin.ext (by
      match a with
      | ⟨0, _⟩ => exact dotA_lhs0 _ _
      | ⟨1, _⟩ => exact (dotA_lhs1 _ _).trans hk)
  have er : dot_S5000x128_S128x128_S5000x128_1_0_0_1_n_n.rhsIdx (ix2 r c)
      ((contrEquiv1 dot_S5000x128_S128x128_S5000x128_1_0_0_1_n_n 128 rfl rfl).symm k) = ix2 k c :=
    funext fun a => Fin.ext (by
      match a with
      | ⟨0, _⟩ => exact (dotA_rhs0 _ _).trans hk
      | ⟨1, _⟩ => exact dotA_rhs1 _ _)
  rw [el, er]

/-- The bias [128] as a [1,128] row broadcast down 5000 rows, read at (r, c): its entry c. -/
private theorem biasA_apply (b : FVec Ideal S128 .f32) (r : Fin 5000) (c : Fin 128) :
    broadcastTo S5000x128 (shapeCast S1x128 b shapeCasts_S128_S1x128) broadcasts_S1x128_S5000x128 (ix2 r c) = b (ix1 c) := by
  refine (broadcastTo_apply _ broadcasts_S1x128_S5000x128 (ix2 r c) (ix2 (0 : Fin 1) c) (fun a => ?_)).trans ?_
  · match a with
    | ⟨0, _⟩ => rfl
    | ⟨1, _⟩ => rfl
  · refine (shapeCast_addUnit_apply ![128] b shapeCasts_S128_S1x128 (ix2 (0 : Fin 1) c)).trans ?_
    exact congrArg b (funext fun a => match a with | ⟨0, _⟩ => rfl)

/-- The body's arithmetic, a pure term of the loaded blocks, read at (r, c): the dense layer's entry
    max (Σ_k a[r,k] · Wl[k,c] + Σ_k x[r,k] · Wr[k,c] + b[c]) 0. -/
private theorem k0_pay1_apply (x0 x1 : Vec Ideal S5000x128 .f32) (x2 x3 : Vec Ideal S128x128 .f32) (x4 : Vec Ideal S128 .f32)
    (r : Fin 5000) (c : Fin 128) :
    k0_pay1 (F := Ideal) x0 x1 x2 x3 x4 (ix2 r c)
      = rowLayer (fun k => x0 (ix2 r k)) (fun k => x1 (ix2 r k)) x2 x3 x4 c := by
  unfold k0_pay1
  simp only [shapeCast_self]
  rw [maximumf_apply, addf_apply, addf_apply, matmulA_apply, matmulA_apply, biasA_apply, broadcast_apply]
  simp only [truncf_apply]
  rfl

/-- The output block the body leaves, read at (r, c), is the dense layer's entry (r, c) of the input blocks. -/
theorem out0_5_apply (x0 x1 : Vec Ideal Cert.KernelIdeal.S5000x128 .f32) (x2 x3 : Vec Ideal Cert.KernelIdeal.S128x128 .f32)
    (x4 : Vec Ideal Cert.KernelIdeal.S128 .f32) (r : Fin 5000) (c : Fin 128) :
    Cert.KernelIdeal.Gen.out0_5 (F := Ideal) x0 x1 x2 x3 x4 (ix2 r c)
      = rowLayer (fun k => x0 (ix2 r k)) (fun k => x1 (ix2 r k)) x2 x3 x4 c := by
  unfold Cert.KernelIdeal.Gen.out0_5
  rw [View.canon_unit_zero hz2]
  rw [View.ld_unit_zero hz2, View.ld_unit_zero hz2, View.ld_unit_zero hz2, View.ld_unit_zero hz2, View.ld_unit_zero hz1]
  exact k0_pay1_apply x0 x1 x2 x3 x4 r c

end Cert.Sage
end
-- ==== Proof.KBody1.lean ====
import proofs.«104326_j68582037782752_1_alg».proof.Proof.Gen.KernelIdeal.Frame
import proofs.«104326_j68582037782752_1_alg».proof.Proof.Spec
import Idealize.ShloMosaic.Lib.Pipeline.Value
import Idealize.ShloMosaic.Lib.ValueIdx
import Idealize.ShloMosaic.PureOps.Ideal.Laws

/-!
# The second dense-layer body read at an index

The body loads its five blocks whole (two [5000,128] blocks of rows, two [128,128] weights given transposed, a [128]
bias), forms max (a · Wl + x · Wr + b) 0 in one pure term and stores it whole. So the output block at (r, c) is
`rowLayer` of row r of the two row blocks, the two weights and the bias, at column c:

* a whole-block load through the rectangle at offset zero is the block, and one whole-block store leaves its payload;
* each product into the zero accumulator, read at (r, c), is Σ_k a[r,k] · w[k,c] (the contraction index set is Fin 128);
* the bias, reshaped to a row and broadcast down the rows, read at (r, c), is b[c];
* rounding to bf16 and a shape cast to the same shape are the identity on ideal values.
-/

noncomputable section
namespace Cert.Sage
open Idealize.ShloMosaic Idealize.ShloMosaic.ValueIdx
open Cert.KernelIdeal Cert.KernelIdeal.Gen

private theorem hz2 : (![0, 0] : Fin 2 → Nat) = fun _ => 0 := funext fun a => by fin_cases a <;> rfl
private theorem hz1 : (![0] : Fin 1 → Nat) = fun _ => 0 := funext fun a => by fin_cases a <;> rfl

/-! ## The square product's operand indices -/

private theorem dotA_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
private theorem dotA_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem dotA_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem dotA_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A [5000,128] × [128,128] product into the zero accumulator, read at (r, c): row r of the left operand against
    column c of the right one, Σ_k a[r,k] · w[k,c]. -/
private theorem matmulA_apply {φ₁ φ₂ : FTy} (a : FVec Ideal S5000x128 φ₁) (w : FVec Ideal S128x128 φ₂) (r : Fin 5000) (c : Fin 128) :
    matmul (F := Ideal) dot_S5000x128_S128x128_S5000x128_1_0_0_1_n_n none a w (constant S5000x128 .f32 0x00000000#32) (ix2 r c)
      = ∑ k : Fin 128, a (ix2 r k) * w (ix2 k c) := by
  refine (Ideal.matmul_constant_zero_apply dot_S5000x128_S128x128_S5000x128_1_0_0_1_n_n none a w (ix2 r c)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r c)
      ((contrEquiv1 dot_S5000x128_S128x128_S5000x128_1_0_0_1_n_n 128 rfl rfl).symm k) = ix2 r k :=
    funext fun a => Fin.ext (by
      match a with
      | ⟨0, _⟩ => exact dotA_lhs0 _ _
      | ⟨1, _⟩ => exact (dotA_lhs1 _ _).trans hk)
  have er : dot_S5000x128_S128x128_S5000x128_1_0_0_1_n_n.rhsIdx (ix2 r c)
      ((contrEquiv1 dot_S5000x128_S128x128_S5000x128_1_0_0_1_n_n 128 rfl rfl).symm k) = ix2 k c :=
    funext fun a => Fin.ext (by
      match a with
      | ⟨0, _⟩ => exact (dotA_rhs0 _ _).trans hk
      | ⟨1, _⟩ => exact dotA_rhs1 _ _)
  rw [el, er]

/-- The bias [128] as a [1,128] row broadcast down 5000 rows, read at (r, c): its entry c. -/
private theorem biasA_apply (b : FVec Ideal S128 .f32) (r : Fin 5000) (c : Fin 128) :
    broadcastTo S5000x128 (shapeCast S1x128 b shapeCasts_S128_S1x128) broadcasts_S1x128_S5000x128 (ix2 r c) = b (ix1 c) := by
  refine (broadcastTo_apply _ broadcasts_S1x128_S5000x128 (ix2 r c) (ix2 (0 : Fin 1) c) (fun a => ?_)).trans ?_
  · match a with
    | ⟨0, _⟩ => rfl
    | ⟨1, _⟩ => rfl
  · refine (shapeCast_addUnit_apply ![128] b shapeCasts_S128_S1x128 (ix2 (0 : Fin 1) c)).trans ?_
    exact congrArg b (funext fun a => match a with | ⟨0, _⟩ => rfl)

/-- The body's arithmetic, a pure term of the loaded blocks, read at (r, c): the dense layer's entry
    max (Σ_k a[r,k] · Wl[k,c] + Σ_k x[r,k] · Wr[k,c] + b[c]) 0. -/
private theorem k1_pay1_apply (x0 x1 : Vec Ideal S5000x128 .f32) (x2 x3 : Vec Ideal S128x128 .f32) (x4 : Vec Ideal S128 .f32)
    (r : Fin 5000) (c : Fin 128) :
    k1_pay1 (F := Ideal) x0 x1 x2 x3 x4 (ix2 r c)
      = rowLayer (fun k => x0 (ix2 r k)) (fun k => x1 (ix2 r k)) x2 x3 x4 c := by
  unfold k1_pay1
  simp only [shapeCast_self]
  rw [maximumf_apply, addf_apply, addf_apply, matmulA_apply, matmulA_apply, biasA_apply, broadcast_apply]
  simp only [truncf_apply]
  rfl

/-- The output block the body leaves, read at (r, c), is the dense layer's entry (r, c) of the input blocks. -/
theorem out1_5_apply (x0 x1 : Vec Ideal Cert.KernelIdeal.S5000x128 .f32) (x2 x3 : Vec Ideal Cert.KernelIdeal.S128x128 .f32)
    (x4 : Vec Ideal Cert.KernelIdeal.S128 .f32) (r : Fin 5000) (c : Fin 128) :
    Cert.KernelIdeal.Gen.out1_5 (F := Ideal) x0 x1 x2 x3 x4 (ix2 r c)
      = rowLayer (fun k => x0 (ix2 r k)) (fun k => x1 (ix2 r k)) x2 x3 x4 c := by
  unfold Cert.KernelIdeal.Gen.out1_5
  rw [View.canon_unit_zero hz2]
  rw [View.ld_unit_zero hz2, View.ld_unit_zero hz2, View.ld_unit_zero hz2, View.ld_unit_zero hz2, View.ld_unit_zero hz1]
  exact k1_pay1_apply x0 x1 x2 x3 x4 r c

end Cert.Sage
end
-- ==== Proof.KBody2.lean ====
import proofs.«104326_j68582037782752_1_alg».proof.Proof.Gen.KernelIdeal.Frame
import proofs.«104326_j68582037782752_1_alg».proof.Proof.Spec
import Idealize.ShloMosaic.Lib.Pipeline.Value
import Idealize.ShloMosaic.Lib.ValueIdx
import Idealize.ShloMosaic.PureOps.Ideal.Laws

/-!
# The scorer's body read at an index

The body loads its seven blocks whole (two [5000,128] blocks of rows, two [128,128] weights given transposed, a [128]
bias, a [128,1] output column, a [1] output bias), forms the hidden rows h = max (a · W3a + b · W3b + b3) 0, then
logistic (h · w4 + b4), in one pure term and stores it whole. So the output block at (r, 0) is `rowScore` of row r of
the two row blocks and the weights:

* a whole-block load through the rectangle at offset zero is the block, and one whole-block store leaves its payload;
* each product into the zero accumulator, read at (r, c), is Σ_k a[r,k] · w[k,c] (the contraction index set is Fin 128);
* a bias, reshaped to a row and broadcast down the rows, read at (r, c), is its entry c;
* rounding to bf16 and a shape cast to the same shape are the identity on ideal values;
* the logistic operation is lane by lane the function 1 / (1 + e⁻ˣ) of the extended reals.
-/

noncomputable section
namespace Cert.Sage
open Idealize.ShloMosaic Idealize.ShloMosaic.ValueIdx
open Cert.KernelIdeal Cert.KernelIdeal.Gen

private theorem hz2 : (![0, 0] : Fin 2 → Nat) = fun _ => 0 := funext fun a => by fin_cases a <;> rfl
private theorem hz1 : (![0] : Fin 1 → Nat) = fun _ => 0 := funext fun a => by fin_cases a <;> rfl

/-! ## The square product's operand indices -/

private theorem dotA_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
private theorem dotA_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem dotA_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem dotA_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A [5000,128] × [128,128] product into the zero accumulator, read at (r, c): row r of the left operand against
    column c of the right one, Σ_k a[r,k] · w[k,c]. -/
private theorem matmulA_apply {φ₁ φ₂ : FTy} (a : FVec Ideal S5000x128 φ₁) (w : FVec Ideal S128x128 φ₂) (r : Fin 5000) (c : Fin 128) :
    matmul (F := Ideal) dot_S5000x128_S128x128_S5000x128_1_0_0_1_n_n none a w (constant S5000x128 .f32 0x00000000#32) (ix2 r c)
      = ∑ k : Fin 128, a (ix2 r k) * w (ix2 k c) := by
  refine (Ideal.matmul_constant_zero_apply dot_S5000x128_S128x128_S5000x128_1_0_0_1_n_n none a w (ix2 r c)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r c)
      ((contrEquiv1 dot_S5000x128_S128x128_S5000x128_1_0_0_1_n_n 128 rfl rfl).symm k) = ix2 r k :=
    funext fun a => Fin.ext (by
      match a with
      | ⟨0, _⟩ => exact dotA_lhs0 _ _
      | ⟨1, _⟩ => exact (dotA_lhs1 _ _).trans hk)
  have er : dot_S5000x128_S128x128_S5000x128_1_0_0_1_n_n.rhsIdx (ix2 r c)
      ((contrEquiv1 dot_S5000x128_S128x128_S5000x128_1_0_0_1_n_n 128 rfl rfl).symm k) = ix2 k c :=
    funext fun a => Fin.ext (by
      match a with
      | ⟨0, _⟩ => exact (dotA_rhs0 _ _).trans hk
      | ⟨1, _⟩ => exact dotA_rhs1 _ _)
  rw [el, er]

/-- The bias [128] as a [1,128] row broadcast down 5000 rows, read at (r, c): its entry c. -/
private theorem biasA_apply (b : FVec Ideal S128 .f32) (r : Fin 5000) (c : Fin 128) :
    broadcastTo S5000x128 (shapeCast S1x128 b shapeCasts_S128_S1x128) broadcasts_S1x128_S5000x128 (ix2 r c) = b (ix1 c) := by
  refine (broadcastTo_apply _ broadcasts_S1x128_S5000x128 (ix2 r c) (ix2 (0 : Fin 1) c) (fun a => ?_)).trans ?_
  · match a with
    | ⟨0, _⟩ => rfl
    | ⟨1, _⟩ => rfl
  · refine (shapeCast_addUnit_apply ![128] b shapeCasts_S128_S1x128 (ix2 (0 : Fin 1) c)).trans ?_
    exact congrArg b (funext fun a => match a with | ⟨0, _⟩ => rfl)

/-- The hidden rows, max (a · W3a + b · W3b + b3) 0 as the body spells it, read at (r, c): the dense layer's entry. -/
private theorem hidden_apply (x0 x1 : Vec Ideal S5000x128 .f32) (x2 x3 : Vec Ideal S128x128 .f32) (x4 : Vec Ideal S128 .f32)
    (r : Fin 5000) (c : Fin 128) :
    maximumf (F := Ideal)
      (addf
        (addf
          (matmul dot_S5000x128_S128x128_S5000x128_1_0_0_1_n_n none (truncf .bf16 x0 bitsLt_bf16_f32)
            (truncf .bf16 x2 bitsLt_bf16_f32) (constant S5000x128 .f32 0x00000000#32))
          (matmul dot_S5000x128_S128x128_S5000x128_1_0_0_1_n_n none (truncf .bf16 x1 bitsLt_bf16_f32)
            (truncf .bf16 x3 bitsLt_bf16_f32) (constant S5000x128 .f32 0x00000000#32)))
        (broadcastTo S5000x128 (shapeCast S1x128 x4 shapeCasts_S128_S1x128) broadcasts_S1x128_S5000x128))
      (broadcast S5000x128 (Scalar.ofBits .f32 0x00000000#32)) (ix2 r c)
      = rowLayer (fun k => x0 (ix2 r k)) (fun k => x1 (ix2 r k)) x2 x3 x4 c := by
  rw [maximumf_apply, addf_apply, addf_apply, matmulA_apply, matmulA_apply, biasA_apply, broadcast_apply]
  simp only [truncf_apply]
  rfl

/-! ## The output column's product -/

private theorem dotB_lhs0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide),
    dif_pos (show (0 : Fin S5000x128.rank) ∈ dot_S5000x128_S128x1_S5000x1_1_0_0_1_n_n.lhsNonContracting by decide)]
  rfl
private theorem dotB_lhs1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
private theorem dotB_rhs0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
private theorem dotB_rhs1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide),
    dif_pos (show (1 : Fin S128x1.rank) ∈ dot_S5000x128_S128x1_S5000x1_1_0_0_1_n_n.rhsNonContracting by decide)]
  rfl

/-- A [5000,128] × [128,1] product into the zero accumulator, read at (r, 0): row r against the column,
    Σ_j h[r,j] · w[j,0]. -/
private theorem matmulB_apply {φ₁ φ₂ : FTy} (a : FVec Ideal S5000x128 φ₁) (w : FVec Ideal S128x1 φ₂) (r : Fin 5000) :
    matmul (F := Ideal) dot_S5000x128_S128x1_S5000x1_1_0_0_1_n_n none a w (constant S5000x1 .f32 0x00000000#32) (ix2 r (0 : Fin 1))
      = ∑ j : Fin 128, a (ix2 r j) * w (ix2 j (0 : Fin 1)) := by
  refine (Ideal.matmul_constant_zero_apply dot_S5000x128_S128x1_S5000x1_1_0_0_1_n_n none a w (ix2 r (0 : Fin 1))).trans ?_
  rw [← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 r (0 : Fin 1))
      ((contrEquiv1 dot_S5000x128_S128x1_S5000x1_1_0_0_1_n_n 128 rfl rfl).symm k) = ix2 r k :=
    funext fun a => Fin.ext (by
      match a with
      | ⟨0, _⟩ => exact dotB_lhs0 _ _
      | ⟨1, _⟩ => exact (dotB_lhs1 _ _).trans hk)
  have er : dot_S5000x128_S128x1_S5000x1_1_0_0_1_n_n.rhsIdx (ix2 r (0 : Fin 1))
      ((contrEquiv1 dot_S5000x128_S128x1_S5000x1_1_0_0_1_n_n 128 rfl rfl).symm k) = ix2 k (0 : Fin 1) :=
    funext fun a => Fin.ext (by
      match a with
      | ⟨0, _⟩ => exact (dotB_rhs0 _ _).trans hk
      | ⟨1, _⟩ => exact dotB_rhs1 _ _)
  rw [el, er]

/-- The output bias [1] as a [1,1] block broadcast down 5000 rows, read at (r, 0): its one entry. -/
private theorem biasB_apply (b : FVec Ideal S1 .f32) (r : Fin 5000) :
    broadcastTo S5000x1 (shapeCast S1x1 b shapeCasts_S1_S1x1) broadcasts_S1x1_S5000x1 (ix2 r (0 : Fin 1)) = b (ix1 (0 : Fin 1)) := by
  refine (broadcastTo_apply _ broadcasts_S1x1_S5000x1 (ix2 r (0 : Fin 1)) (ix2 (0 : Fin 1) (0 : Fin 1)) (fun a => ?_)).trans ?_
  · match a with
    | ⟨0, _⟩ => rfl
    | ⟨1, _⟩ => rfl
  · refine (shapeCast_addUnit_apply ![1] b shapeCasts_S1_S1x1 (ix2 (0 : Fin 1) (0 : Fin 1))).trans ?_
    exact congrArg b (funext fun a => match a with | ⟨0, _⟩ => rfl)

/-- The logistic operation on a block is the extended reals' logistic function at each entry. -/
private theorem logistic_at (v : FVec Ideal S5000x1 .f32) (i : S5000x1.Idx) : logistic v i = Ideal.logistic (v i) := rfl

/-- The body's arithmetic, a pure term of the loaded blocks, read at (r, 0): the pair's score
    logistic (Σ_j h[r,j] · w4[j,0] + b4[0]) with h the hidden rows. -/
private theorem k2_pay1_apply (x0 x1 : Vec Ideal S5000x128 .f32) (x2 x3 : Vec Ideal S128x128 .f32) (x4 : Vec Ideal S128 .f32)
    (x5 : Vec Ideal S128x1 .f32) (x6 : Vec Ideal S1 .f32) (r : Fin 5000) :
    k2_pay1 (F := Ideal) x0 x1 x2 x3 x4 x5 x6 (ix2 r (0 : Fin 1))
      = rowScore (fun k => x0 (ix2 r k)) (fun k => x1 (ix2 r k)) x2 x3 x4 x5 x6 := by
  unfold k2_pay1
  simp only [shapeCast_self]
  rw [logistic_at, addf_apply, matmulB_apply, biasB_apply]
  unfold rowScore
  refine congrArg Ideal.logistic (congrArg (fun t => t + x6 (ix1 (0 : Fin 1))) (Finset.sum_congr rfl fun j _ => ?_))
  rw [truncf_apply, truncf_apply, hidden_apply]

/-- The output block the body leaves, read at (r, 0), is the score of row r of the input blocks. -/
theorem out2_7_apply (x0 x1 : Vec Ideal Cert.KernelIdeal.S5000x128 .f32) (x2 x3 : Vec Ideal Cert.KernelIdeal.S128x128 .f32)
    (x4 : Vec Ideal Cert.KernelIdeal.S128 .f32) (x5 : Vec Ideal Cert.KernelIdeal.S128x1 .f32)
    (x6 : Vec Ideal Cert.KernelIdeal.S1 .f32) (r : Fin 5000) :
    Cert.KernelIdeal.Gen.out2_7 (F := Ideal) x0 x1 x2 x3 x4 x5 x6 (ix2 r (0 : Fin 1))
      = rowScore (fun k => x0 (ix2 r k)) (fun k => x1 (ix2 r k)) x2 x3 x4 x5 x6 := by
  unfold Cert.KernelIdeal.Gen.out2_7
  rw [View.canon_unit_zero hz2]
  rw [View.ld_unit_zero hz2, View.ld_unit_zero hz2, View.ld_unit_zero hz2, View.ld_unit_zero hz2, View.ld_unit_zero hz1,
    View.ld_unit_zero hz2, View.ld_unit_zero hz1]
  exact k2_pay1_apply x0 x1 x2 x3 x4 x5 x6 r

end Cert.Sage
end
-- ==== Proof.KRegion0.lean ====
import proofs.«104326_j68582037782752_1_alg».proof.Proof.Gen.KernelIdeal.Frame
import proofs.«104326_j68582037782752_1_alg».proof.Proof.Spec
import Idealize.ShloMosaic.Lib.Pipeline.Value

/-!
# Region 0: from the blocks to the array

The region walks ten blocks of 5000 rows. At point t the two row-blocked operands are read at rows
5000·t … 5000·t + 4999, the two weight matrices and the bias whole; the body's result is written back to rows
5000·t … 5000·t + 4999 of the output. Since an entry of the dense layer depends only on its own row of the two operands,
block t of the layer of the whole arrays is the layer of the blocks, and the ten blocks tile the 50000 rows: the output array
ends at the layer of the arrays the region found (whatever the body's entry-by-entry value, given as a hypothesis here:
the body's result at row r and column c is the row formula of the blocks' rows).
-/

set_option maxRecDepth 16384

noncomputable section

namespace Cert.Sage

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- What the body computes, entry by entry: the row formula of its blocks' rows. -/
def Body0 : Prop :=
  ∀ (x0 x1 : Vec Ideal S5000x128 .f32) (x2 x3 : Vec Ideal S128x128 .f32) (x4 : Vec Ideal S128 .f32) (r : Fin 5000) (c : Fin 128),
    out0_5 (F := Ideal) x0 x1 x2 x3 x4 (ix2 r c)
      = rowLayer (fun k => x0 (ix2 r k)) (fun k => x1 (ix2 r k)) x2 x3 x4 c

/-- The layer of the whole arrays at row 5000·t₀ + r is the body's result at row r, when the blocks are rows
    5000·t₀ … of the arrays. -/
theorem block_layer0 (hb : Body0) (x0 x1 : Vec Ideal S5000x128 .f32) (x2 x3 : Vec Ideal S128x128 .f32) (x4 : Vec Ideal S128 .f32)
    (A X : FVec Ideal S50000x128 .f32) (t₀ : Nat)
    (h0 : ∀ (r : Fin 5000) (k : Fin 128) (hr : t₀ * 5000 + r.val < 50000), x0 (ix2 r k) = A (ix2 (⟨t₀ * 5000 + r.val, hr⟩ : Fin 50000) k))
    (h1 : ∀ (r : Fin 5000) (k : Fin 128) (hr : t₀ * 5000 + r.val < 50000), x1 (ix2 r k) = X (ix2 (⟨t₀ * 5000 + r.val, hr⟩ : Fin 50000) k))
    (r : Fin 5000) (cc : Fin 128) (i : S50000x128.Idx) (hi0 : (i 0).val = t₀ * 5000 + r.val) (hi1 : (i 1).val = cc.val) :
    out0_5 (F := Ideal) x0 x1 x2 x3 x4 (ix2 r cc) = layerT A X x2 x3 x4 i := by
  refine (hb x0 x1 x2 x3 x4 r cc).trans ?_
  unfold layerT
  have hr : t₀ * 5000 + r.val < 50000 := hi0 ▸ idx2_lt0 i
  have e0 : (⟨(i 0).val, idx2_lt0 i⟩ : Fin 50000) = ⟨t₀ * 5000 + r.val, hr⟩ := Fin.ext hi0
  have e1 : (⟨(i 1).val, idx2_lt1 i⟩ : Fin 128) = cc := Fin.ext hi1
  rw [e0, e1]
  exact congrArg₂ (fun a b => rowLayer a b x2 x3 x4 cc) (funext fun k => h0 r k hr) (funext fun k => h1 r k hr)

variable (V : (c : Dev nD) → (b : Ref sig .tc) → Buf (Elt Ideal) ((c : Thread nD τ).loc b))

/-- The printed index maps over the grid: the row-blocked windows sit at block (t, 0), the whole ones at block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- A block of the first row-blocked operand at (r, k) is the array at row 5000·t + r. -/
theorem iblk_rows0_0 (c : Dev nD) (t : Fin cfg0.N) (r : Fin 5000) (k : Fin 128) (hr : t.val * 5000 + r.val < 50000) :
    iblk0 V c 0 t (ix2 r k) = (V c main_v21 : FVec Ideal S50000x128 .f32) (ix2 (⟨t.val * 5000 + r.val, hr⟩ : Fin 50000) k) := by
  obtain ⟨e00, e01, -⟩ := idx_facts0 t
  show V c main_v21 (((cfg0.win 0).blk t).view.emb (ix2 r k)) = _
  refine congrArg _ (funext fun a => Fin.ext ?_)
  match a with
  | ⟨0, _⟩ => show win0_0.index t (0 : Fin 2) * 5000 + 1 * r.val = t.val * 5000 + r.val; omega
  | ⟨1, _⟩ => show win0_0.index t (1 : Fin 2) * 128 + 1 * k.val = k.val; omega

/-- A block of the second row-blocked operand at (r, k) is the array at row 5000·t + r. -/
theorem iblk_rows0_1 (c : Dev nD) (t : Fin cfg0.N) (r : Fin 5000) (k : Fin 128) (hr : t.val * 5000 + r.val < 50000) :
    iblk0 V c 1 t (ix2 r k) = (V c main_arg0 : FVec Ideal S50000x128 .f32) (ix2 (⟨t.val * 5000 + r.val, hr⟩ : Fin 50000) k) := by
  obtain ⟨-, -, e10, e11, -⟩ := idx_facts0 t
  show V c main_arg0 (((cfg0.win 1).blk t).view.emb (ix2 r k)) = _
  refine congrArg _ (funext fun a => Fin.ext ?_)
  match a with
  | ⟨0, _⟩ => show win0_1.index t (0 : Fin 2) * 5000 + 1 * r.val = t.val * 5000 + r.val; omega
  | ⟨1, _⟩ => show win0_1.index t (1 : Fin 2) * 128 + 1 * k.val = k.val; omega

/-- The first weight matrix is read whole at every point. -/
theorem iblk_whole0_2 (c : Dev nD) (t : Fin cfg0.N) : iblk0 V c 2 t = (V c main_v22 : Vec Ideal S128x128 .f32) := by
  obtain ⟨-, -, -, -, e20, e21, -⟩ := idx_facts0 t
  funext y
  show V c main_v22 (((cfg0.win 2).blk t).view.emb y) = V c main_v22 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The second weight matrix is read whole at every point. -/
theorem iblk_whole0_3 (c : Dev nD) (t : Fin cfg0.N) : iblk0 V c 3 t = (V c main_v23 : Vec Ideal S128x128 .f32) := by
  obtain ⟨-, -, -, -, -, -, e30, e31, -⟩ := idx_facts0 t
  funext y
  show V c main_v23 (((cfg0.win 3).blk t).view.emb y) = V c main_v23 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias is read whole at every point. -/
theorem iblk_whole0_4 (c : Dev nD) (t : Fin cfg0.N) : iblk0 V c 4 t = (V c main_arg5 : Vec Ideal S128 .f32) := by
  obtain ⟨-, -, -, -, -, -, -, -, e40, -⟩ := idx_facts0 t
  funext y
  show V c main_arg5 (((cfg0.win 4).blk t).view.emb y) = V c main_arg5 y
  refine congrArg _ (funext fun a => Fin.ext ?_)
  match a with
  | ⟨0, _⟩ => show win0_4.index t (0 : Fin 1) * 128 + 1 * (y 0).val = (y 0).val; omega

/-- What point t writes back is block t of the layer of the arrays the region found. -/
theorem flushed0 (hb : Body0) (c : Dev nD) (t : Fin cfg0.N) :
    (dat0 V c).flushed 5 t = ((cfg0.win 5).blk t).view.read (Elt Ideal)
      (layerT (V c main_v21) (V c main_arg0) (V c main_v22) (V c main_v23) (V c main_arg5)) := by
  show (cfg0.win 5).cut (grid0.coords t) ((dat0 V c).after 5 t) = _
  rw [after0_5, iblk_whole0_2, iblk_whole0_3, iblk_whole0_4]
  obtain ⟨-, -, -, -, -, -, -, -, -, e50, e51⟩ := idx_facts0 t
  funext j
  obtain ⟨r, cc, rfl⟩ : ∃ (r : Fin 5000) (cc : Fin 128), j = ix2 r cc := ⟨j 0, j 1, eq_ix2 j⟩
  refine block_layer0 hb _ _ _ _ _ _ _ t.val (fun r k hr => iblk_rows0_0 V c t r k hr) (fun r k hr => iblk_rows0_1 V c t r k hr)
    r cc _ ?_ ?_
  · show win0_5.index t (0 : Fin 2) * 5000 + 1 * r.val = t.val * 5000 + r.val; omega
  · show win0_5.index t (1 : Fin 2) * 128 + 1 * cc.val = cc.val; omega

/-- An index of the output array is in point t's block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Row i is in the block of point i / 5000: the blocks tile the rows. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, -, -, -, e50, e51⟩ := idx_facts0 ⟨(i 0).val / 5000, hlt⟩
  have e50' : win0_5.index ⟨(i 0).val / 5000, hlt⟩ (0 : Fin 2) = (i 0).val / 5000 := e50
  refine ⟨⟨(i 0).val / 5000, hlt⟩, flush0_5 _, ?_⟩
  rw [mem_blk0]
  intro a
  match a with
  | ⟨0, _⟩ => show win0_5.index ⟨(i 0).val / 5000, hlt⟩ (0 : Fin 2) * 5000 ≤ (i 0).val ∧ (i 0).val < win0_5.index ⟨(i 0).val / 5000, hlt⟩ (0 : Fin 2) * 5000 + 5000; omega
  | ⟨1, _⟩ => show win0_5.index ⟨(i 0).val / 5000, hlt⟩ (1 : Fin 2) * 128 ≤ (i 1).val ∧ (i 1).val < win0_5.index ⟨(i 0).val / 5000, hlt⟩ (1 : Fin 2) * 128 + 128; omega

/-- The output array after the region: the dense layer of the arrays the region found. -/
theorem arr0 (hb : Body0) (c : Dev nD) :
    (dat0 V c).arrAt 5 cfg0.N = layerT (V c main_v21) (V c main_arg0) (V c main_v22) (V c main_v23) (V c main_arg5) :=
  (dat0 V c).arrAt_eq_of_cover 5 _ (fun t _ => flushed0 V hb c t) cover0

end Cert.Sage

end
-- ==== Proof.KRegion1.lean ====
import proofs.«104326_j68582037782752_1_alg».proof.Proof.Gen.KernelIdeal.Frame
import proofs.«104326_j68582037782752_1_alg».proof.Proof.Spec
import Idealize.ShloMosaic.Lib.Pipeline.Value

/-!
# Region 1: from the blocks to the array

The region walks ten blocks of 5000 rows. At point t the two row-blocked operands are read at rows
5000·t … 5000·t + 4999, the two weight matrices and the bias whole; the body's result is written back to rows
5000·t … 5000·t + 4999 of the output. Since an entry of the dense layer depends only on its own row of the two operands,
block t of the layer of the whole arrays is the layer of the blocks, and the ten blocks tile the 50000 rows: the output array
ends at the layer of the arrays the region found (whatever the body's entry-by-entry value, given as a hypothesis here:
the body's result at row r and column c is the row formula of the blocks' rows).
-/

set_option maxRecDepth 16384

noncomputable section

namespace Cert.Sage

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- What the body computes, entry by entry: the row formula of its blocks' rows. -/
def Body1 : Prop :=
  ∀ (x0 x1 : Vec Ideal S5000x128 .f32) (x2 x3 : Vec Ideal S128x128 .f32) (x4 : Vec Ideal S128 .f32) (r : Fin 5000) (c : Fin 128),
    out1_5 (F := Ideal) x0 x1 x2 x3 x4 (ix2 r c)
      = rowLayer (fun k => x0 (ix2 r k)) (fun k => x1 (ix2 r k)) x2 x3 x4 c

/-- The layer of the whole arrays at row 5000·t₀ + r is the body's result at row r, when the blocks are rows
    5000·t₀ … of the arrays. -/
theorem block_layer1 (hb : Body1) (x0 x1 : Vec Ideal S5000x128 .f32) (x2 x3 : Vec Ideal S128x128 .f32) (x4 : Vec Ideal S128 .f32)
    (A X : FVec Ideal S50000x128 .f32) (t₀ : Nat)
    (h0 : ∀ (r : Fin 5000) (k : Fin 128) (hr : t₀ * 5000 + r.val < 50000), x0 (ix2 r k) = A (ix2 (⟨t₀ * 5000 + r.val, hr⟩ : Fin 50000) k))
    (h1 : ∀ (r : Fin 5000) (k : Fin 128) (hr : t₀ * 5000 + r.val < 50000), x1 (ix2 r k) = X (ix2 (⟨t₀ * 5000 + r.val, hr⟩ : Fin 50000) k))
    (r : Fin 5000) (cc : Fin 128) (i : S50000x128.Idx) (hi0 : (i 0).val = t₀ * 5000 + r.val) (hi1 : (i 1).val = cc.val) :
    out1_5 (F := Ideal) x0 x1 x2 x3 x4 (ix2 r cc) = layerT A X x2 x3 x4 i := by
  refine (hb x0 x1 x2 x3 x4 r cc).trans ?_
  unfold layerT
  have hr : t₀ * 5000 + r.val < 50000 := hi0 ▸ idx2_lt0 i
  have e0 : (⟨(i 0).val, idx2_lt0 i⟩ : Fin 50000) = ⟨t₀ * 5000 + r.val, hr⟩ := Fin.ext hi0
  have e1 : (⟨(i 1).val, idx2_lt1 i⟩ : Fin 128) = cc := Fin.ext hi1
  rw [e0, e1]
  exact congrArg₂ (fun a b => rowLayer a b x2 x3 x4 cc) (funext fun k => h0 r k hr) (funext fun k => h1 r k hr)

variable (V : (c : Dev nD) → (b : Ref sig .tc) → Buf (Elt Ideal) ((c : Thread nD τ).loc b))

/-- The printed index maps over the grid: the row-blocked windows sit at block (t, 0), the whole ones at block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- A block of the first row-blocked operand at (r, k) is the array at row 5000·t + r. -/
theorem iblk_rows1_0 (c : Dev nD) (t : Fin cfg1.N) (r : Fin 5000) (k : Fin 128) (hr : t.val * 5000 + r.val < 50000) :
    iblk1 V c 0 t (ix2 r k) = (V c main_v42 : FVec Ideal S50000x128 .f32) (ix2 (⟨t.val * 5000 + r.val, hr⟩ : Fin 50000) k) := by
  obtain ⟨e00, e01, -⟩ := idx_facts1 t
  show V c main_v42 (((cfg1.win 0).blk t).view.emb (ix2 r k)) = _
  refine congrArg _ (funext fun a => Fin.ext ?_)
  match a with
  | ⟨0, _⟩ => show win1_0.index t (0 : Fin 2) * 5000 + 1 * r.val = t.val * 5000 + r.val; omega
  | ⟨1, _⟩ => show win1_0.index t (1 : Fin 2) * 128 + 1 * k.val = k.val; omega

/-- A block of the second row-blocked operand at (r, k) is the array at row 5000·t + r. -/
theorem iblk_rows1_1 (c : Dev nD) (t : Fin cfg1.N) (r : Fin 5000) (k : Fin 128) (hr : t.val * 5000 + r.val < 50000) :
    iblk1 V c 1 t (ix2 r k) = (V c main_v24 : FVec Ideal S50000x128 .f32) (ix2 (⟨t.val * 5000 + r.val, hr⟩ : Fin 50000) k) := by
  obtain ⟨-, -, e10, e11, -⟩ := idx_facts1 t
  show V c main_v24 (((cfg1.win 1).blk t).view.emb (ix2 r k)) = _
  refine congrArg _ (funext fun a => Fin.ext ?_)
  match a with
  | ⟨0, _⟩ => show win1_1.index t (0 : Fin 2) * 5000 + 1 * r.val = t.val * 5000 + r.val; omega
  | ⟨1, _⟩ => show win1_1.index t (1 : Fin 2) * 128 + 1 * k.val = k.val; omega

/-- The first weight matrix is read whole at every point. -/
theorem iblk_whole1_2 (c : Dev nD) (t : Fin cfg1.N) : iblk1 V c 2 t = (V c main_v43 : Vec Ideal S128x128 .f32) := by
  obtain ⟨-, -, -, -, e20, e21, -⟩ := idx_facts1 t
  funext y
  show V c main_v43 (((cfg1.win 2).blk t).view.emb y) = V c main_v43 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The second weight matrix is read whole at every point. -/
theorem iblk_whole1_3 (c : Dev nD) (t : Fin cfg1.N) : iblk1 V c 3 t = (V c main_v44 : Vec Ideal S128x128 .f32) := by
  obtain ⟨-, -, -, -, -, -, e30, e31, -⟩ := idx_facts1 t
  funext y
  show V c main_v44 (((cfg1.win 3).blk t).view.emb y) = V c main_v44 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias is read whole at every point. -/
theorem iblk_whole1_4 (c : Dev nD) (t : Fin cfg1.N) : iblk1 V c 4 t = (V c main_arg8 : Vec Ideal S128 .f32) := by
  obtain ⟨-, -, -, -, -, -, -, -, e40, -⟩ := idx_facts1 t
  funext y
  show V c main_arg8 (((cfg1.win 4).blk t).view.emb y) = V c main_arg8 y
  refine congrArg _ (funext fun a => Fin.ext ?_)
  match a with
  | ⟨0, _⟩ => show win1_4.index t (0 : Fin 1) * 128 + 1 * (y 0).val = (y 0).val; omega

/-- What point t writes back is block t of the layer of the arrays the region found. -/
theorem flushed1 (hb : Body1) (c : Dev nD) (t : Fin cfg1.N) :
    (dat1 V c).flushed 5 t = ((cfg1.win 5).blk t).view.read (Elt Ideal)
      (layerT (V c main_v42) (V c main_v24) (V c main_v43) (V c main_v44) (V c main_arg8)) := by
  show (cfg1.win 5).cut (grid1.coords t) ((dat1 V c).after 5 t) = _
  rw [after1_5, iblk_whole1_2, iblk_whole1_3, iblk_whole1_4]
  obtain ⟨-, -, -, -, -, -, -, -, -, e50, e51⟩ := idx_facts1 t
  funext j
  obtain ⟨r, cc, rfl⟩ : ∃ (r : Fin 5000) (cc : Fin 128), j = ix2 r cc := ⟨j 0, j 1, eq_ix2 j⟩
  refine block_layer1 hb _ _ _ _ _ _ _ t.val (fun r k hr => iblk_rows1_0 V c t r k hr) (fun r k hr => iblk_rows1_1 V c t r k hr)
    r cc _ ?_ ?_
  · show win1_5.index t (0 : Fin 2) * 5000 + 1 * r.val = t.val * 5000 + r.val; omega
  · show win1_5.index t (1 : Fin 2) * 128 + 1 * cc.val = cc.val; omega

/-- An index of the output array is in point t's block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- Row i is in the block of point i / 5000: the blocks tile the rows. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  have hlt : (i 0).val / 5000 < cfg1.N := by rw [hN]; omega
  obtain ⟨-, -, -, -, -, -, -, -, -, e50, e51⟩ := idx_facts1 ⟨(i 0).val / 5000, hlt⟩
  have e50' : win1_5.index ⟨(i 0).val / 5000, hlt⟩ (0 : Fin 2) = (i 0).val / 5000 := e50
  refine ⟨⟨(i 0).val / 5000, hlt⟩, flush1_5 _, ?_⟩
  rw [mem_blk1]
  intro a
  match a with
  | ⟨0, _⟩ => show win1_5.index ⟨(i 0).val / 5000, hlt⟩ (0 : Fin 2) * 5000 ≤ (i 0).val ∧ (i 0).val < win1_5.index ⟨(i 0).val / 5000, hlt⟩ (0 : Fin 2) * 5000 + 5000; omega
  | ⟨1, _⟩ => show win1_5.index ⟨(i 0).val / 5000, hlt⟩ (1 : Fin 2) * 128 ≤ (i 1).val ∧ (i 1).val < win1_5.index ⟨(i 0).val / 5000, hlt⟩ (1 : Fin 2) * 128 + 128; omega

/-- The output array after the region: the dense layer of the arrays the region found. -/
theorem arr1 (hb : Body1) (c : Dev nD) :
    (dat1 V c).arrAt 5 cfg1.N = layerT (V c main_v42) (V c main_v24) (V c main_v43) (V c main_v44) (V c main_arg8) :=
  (dat1 V c).arrAt_eq_of_cover 5 _ (fun t _ => flushed1 V hb c t) cover1

end Cert.Sage

end
-- ==== Proof.KRegion2.lean ====
import proofs.«104326_j68582037782752_1_alg».proof.Proof.Gen.KernelIdeal.Frame
import proofs.«104326_j68582037782752_1_alg».proof.Proof.Spec
import Idealize.ShloMosaic.Lib.Pipeline.Value

/-!
# Region 2: from the blocks to the array

The region walks forty blocks of 5000 pairs. At point t the two gathered operands are read at rows
5000·t … 5000·t + 4999, the weights and biases whole; the body's result is written back to rows 5000·t … 5000·t + 4999 of
the one-column output. A pair's score depends only on its own row of the two operands, so block t of the scores of the
whole arrays is the scores of the blocks, and the forty blocks tile the 200000 rows: the output array ends at the scores
of the arrays the region found (the body's entry-by-entry value is a hypothesis here: its result at row r is the
score formula of the blocks' rows).
-/

set_option maxRecDepth 16384

noncomputable section

namespace Cert.Sage

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- What the body computes, entry by entry: the score formula of its blocks' rows. -/
def Body2 : Prop :=
  ∀ (x0 x1 : Vec Ideal S5000x128 .f32) (x2 x3 : Vec Ideal S128x128 .f32) (x4 : Vec Ideal S128 .f32)
    (x5 : Vec Ideal S128x1 .f32) (x6 : Vec Ideal S1 .f32) (r : Fin 5000),
    out2_7 (F := Ideal) x0 x1 x2 x3 x4 x5 x6 (ix2 r (0 : Fin 1))
      = rowScore (fun k => x0 (ix2 r k)) (fun k => x1 (ix2 r k)) x2 x3 x4 x5 x6

/-- The scores of the whole arrays at row 5000·t₀ + r are the body's result at row r, when the blocks are rows
    5000·t₀ … of the arrays. -/
theorem block_score2 (hb : Body2) (x0 x1 : Vec Ideal S5000x128 .f32) (x2 x3 : Vec Ideal S128x128 .f32) (x4 : Vec Ideal S128 .f32)
    (x5 : Vec Ideal S128x1 .f32) (x6 : Vec Ideal S1 .f32)
    (A B : FVec Ideal S200000x128 .f32) (t₀ : Nat)
    (h0 : ∀ (r : Fin 5000) (k : Fin 128) (hr : t₀ * 5000 + r.val < 200000), x0 (ix2 r k) = A (ix2 (⟨t₀ * 5000 + r.val, hr⟩ : Fin 200000) k))
    (h1 : ∀ (r : Fin 5000) (k : Fin 128) (hr : t₀ * 5000 + r.val < 200000), x1 (ix2 r k) = B (ix2 (⟨t₀ * 5000 + r.val, hr⟩ : Fin 200000) k))
    (r : Fin 5000) (i : S200000x1.Idx) (hi0 : (i 0).val = t₀ * 5000 + r.val) :
    out2_7 (F := Ideal) x0 x1 x2 x3 x4 x5 x6 (ix2 r (0 : Fin 1)) = scoreT A B x2 x3 x4 x5 x6 i := by
  refine (hb x0 x1 x2 x3 x4 x5 x6 r).trans ?_
  unfold scoreT
  have hr : t₀ * 5000 + r.val < 200000 := hi0 ▸ idx2_lt0 i
  have e0 : (⟨(i 0).val, idx2_lt0 i⟩ : Fin 200000) = ⟨t₀ * 5000 + r.val, hr⟩ := Fin.ext hi0
  rw [e0]
  exact congrArg₂ (fun a b => rowScore a b x2 x3 x4 x5 x6) (funext fun k => h0 r k hr) (funext fun k => h1 r k hr)

variable (V : (c : Dev nD) → (b : Ref sig .tc) → Buf (Elt Ideal) ((c : Thread nD τ).loc b))

/-- The printed index maps over the grid: the row-blocked windows sit at block (t, 0), the whole ones at block 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-- A block of the first gathered operand at (r, k) is the array at row 5000·t + r. -/
theorem iblk_rows2_0 (c : Dev nD) (t : Fin cfg2.N) (r : Fin 5000) (k : Fin 128) (hr : t.val * 5000 + r.val < 200000) :
    iblk2 V c 0 t (ix2 r k) = (V c main_v56 : FVec Ideal S200000x128 .f32) (ix2 (⟨t.val * 5000 + r.val, hr⟩ : Fin 200000) k) := by
  obtain ⟨e00, e01, -⟩ := idx_facts2 t
  show V c main_v56 (((cfg2.win 0).blk t).view.emb (ix2 r k)) = _
  refine congrArg _ (funext fun a => Fin.ext ?_)
  match a with
  | ⟨0, _⟩ => show win2_0.index t (0 : Fin 2) * 5000 + 1 * r.val = t.val * 5000 + r.val; omega
  | ⟨1, _⟩ => show win2_0.index t (1 : Fin 2) * 128 + 1 * k.val = k.val; omega

/-- A block of the second gathered operand at (r, k) is the array at row 5000·t + r. -/
theorem iblk_rows2_1 (c : Dev nD) (t : Fin cfg2.N) (r : Fin 5000) (k : Fin 128) (hr : t.val * 5000 + r.val < 200000) :
    iblk2 V c 1 t (ix2 r k) = (V c main_v63 : FVec Ideal S200000x128 .f32) (ix2 (⟨t.val * 5000 + r.val, hr⟩ : Fin 200000) k) := by
  obtain ⟨-, -, e10, e11, -⟩ := idx_facts2 t
  show V c main_v63 (((cfg2.win 1).blk t).view.emb (ix2 r k)) = _
  refine congrArg _ (funext fun a => Fin.ext ?_)
  match a with
  | ⟨0, _⟩ => show win2_1.index t (0 : Fin 2) * 5000 + 1 * r.val = t.val * 5000 + r.val; omega
  | ⟨1, _⟩ => show win2_1.index t (1 : Fin 2) * 128 + 1 * k.val = k.val; omega

/-- The first hidden weight is read whole at every point. -/
theorem iblk_whole2_2 (c : Dev nD) (t : Fin cfg2.N) : iblk2 V c 2 t = (V c main_v65 : Vec Ideal S128x128 .f32) := by
  obtain ⟨-, -, -, -, e20, e21, -⟩ := idx_facts2 t
  funext y
  show V c main_v65 (((cfg2.win 2).blk t).view.emb y) = V c main_v65 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The second hidden weight is read whole at every point. -/
theorem iblk_whole2_3 (c : Dev nD) (t : Fin cfg2.N) : iblk2 V c 3 t = (V c main_v67 : Vec Ideal S128x128 .f32) := by
  obtain ⟨-, -, -, -, -, -, e30, e31, -⟩ := idx_facts2 t
  funext y
  show V c main_v67 (((cfg2.win 3).blk t).view.emb y) = V c main_v67 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The hidden bias is read whole at every point. -/
theorem iblk_whole2_4 (c : Dev nD) (t : Fin cfg2.N) : iblk2 V c 4 t = (V c main_arg10 : Vec Ideal S128 .f32) := by
  obtain ⟨-, -, -, -, -, -, -, -, e40, -⟩ := idx_facts2 t
  funext y
  show V c main_arg10 (((cfg2.win 4).blk t).view.emb y) = V c main_arg10 y
  refine congrArg _ (funext fun a => Fin.ext ?_)
  match a with
  | ⟨0, _⟩ => show win2_4.index t (0 : Fin 1) * 128 + 1 * (y 0).val = (y 0).val; omega

/-- The output column is read whole at every point. -/
theorem iblk_whole2_5 (c : Dev nD) (t : Fin cfg2.N) : iblk2 V c 5 t = (V c main_v68 : Vec Ideal S128x1 .f32) := by
  obtain ⟨-, -, -, -, -, -, -, -, -, e50, e51, -⟩ := idx_facts2 t
  funext y
  show V c main_v68 (((cfg2.win 5).blk t).view.emb y) = V c main_v68 y
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 1 + 1 * (y 1).val = (y 1).val; omega

/-- The output bias is read whole at every point. -/
theorem iblk_whole2_6 (c : Dev nD) (t : Fin cfg2.N) : iblk2 V c 6 t = (V c main_arg12 : Vec Ideal S1 .f32) := by
  obtain ⟨-, -, -, -, -, -, -, -, -, -, -, e60, -⟩ := idx_facts2 t
  funext y
  show V c main_arg12 (((cfg2.win 6).blk t).view.emb y) = V c main_arg12 y
  refine congrArg _ (funext fun a => Fin.ext ?_)
  match a with
  | ⟨0, _⟩ => show win2_6.index t (0 : Fin 1) * 1 + 1 * (y 0).val = (y 0).val; omega

/-- What point t writes back is block t of the scores of the arrays the region found. -/
theorem flushed2 (hb : Body2) (c : Dev nD) (t : Fin cfg2.N) :
    (dat2 V c).flushed 7 t = ((cfg2.win 7).blk t).view.read (Elt Ideal)
      (scoreT (V c main_v56) (V c main_v63) (V c main_v65) (V c main_v67) (V c main_arg10) (V c main_v68) (V c main_arg12)) := by
  show (cfg2.win 7).cut (grid2.coords t) ((dat2 V c).after 7 t) = _
  rw [after2_7, iblk_whole2_2, iblk_whole2_3, iblk_whole2_4, iblk_whole2_5, iblk_whole2_6]
  obtain ⟨-, -, -, -, -, -, -, -, -, -, -, -, e70, e71⟩ := idx_facts2 t
  funext j
  obtain ⟨r, z, rfl⟩ : ∃ (r : Fin 5000) (z : Fin 1), j = ix2 r z := ⟨j 0, j 1, eq_ix2 j⟩
  obtain rfl : z = 0 := Subsingleton.elim _ _
  refine block_score2 hb _ _ _ _ _ _ _ _ _ t.val (fun r k hr => iblk_rows2_0 V c t r k hr) (fun r k hr => iblk_rows2_1 V c t r k hr)
    r _ ?_
  show win2_7.index t (0 : Fin 2) * 5000 + 1 * r.val = t.val * 5000 + r.val; omega

/-- An index of the output array is in point t's block iff each coordinate is in the block's range on its axis. -/
theorem mem_blk2 (t : Fin cfg2.N) (i : S200000x1.Idx) :
    i ∈ ((cfg2.win 7).blk t).view.set ↔ ∀ a : Fin 2, win2_7.index t a * S5000x1.size a ≤ (i a).val ∧ (i a).val < win2_7.index t a * S5000x1.size a + S5000x1.size a := by
  show i ∈ ((View.whole main_v69).slice (win2_7.rect t)).set ↔ _
  rw [View.set_slice_whole, Rect.mem_set_unit]
  exact Iff.rfl

/-- Row i is in the block of point i / 5000: the blocks tile the rows. -/
theorem cover2 (i : S200000x1.Idx) : ∃ t : Fin cfg2.N, (cfg2.win 7).flush t = true ∧ i ∈ ((cfg2.win 7).blk t).view.set := by
  have hi0 : (i 0).val < 200000 := (i 0).isLt
  have hi1 : (i 1).val < 1 := (i 1).isLt
  have hN : cfg2.N = 40 := N_2
  have hlt : (i 0).val / 5000 < cfg2.N := by rw [hN]; omega
  obtain ⟨-, -, -, -, -, -, -, -, -, -, -, -, e70, e71⟩ := idx_facts2 ⟨(i 0).val / 5000, hlt⟩
  have e70' : win2_7.index ⟨(i 0).val / 5000, hlt⟩ (0 : Fin 2) = (i 0).val / 5000 := e70
  refine ⟨⟨(i 0).val / 5000, hlt⟩, flush2_7 _, ?_⟩
  rw [mem_blk2]
  intro a
  match a with
  | ⟨0, _⟩ => show win2_7.index ⟨(i 0).val / 5000, hlt⟩ (0 : Fin 2) * 5000 ≤ (i 0).val ∧ (i 0).val < win2_7.index ⟨(i 0).val / 5000, hlt⟩ (0 : Fin 2) * 5000 + 5000; omega
  | ⟨1, _⟩ => show win2_7.index ⟨(i 0).val / 5000, hlt⟩ (1 : Fin 2) * 1 ≤ (i 1).val ∧ (i 1).val < win2_7.index ⟨(i 0).val / 5000, hlt⟩ (1 : Fin 2) * 1 + 1; omega

/-- The output array after the region: the scores of the arrays the region found. -/
theorem arr2 (hb : Body2) (c : Dev nD) :
    (dat2 V c).arrAt 7 cfg2.N = scoreT (V c main_v56) (V c main_v63) (V c main_v65) (V c main_v67) (V c main_arg10) (V c main_v68) (V c main_arg12) :=
  (dat2 V c).arrAt_eq_of_cover 7 _ (fun t _ => flushed2 V hb c t) cover2

end Cert.Sage

end
-- ==== Proof.SpecCols.lean ====
import proofs.«104326_j68582037782752_1_alg».proof.Proof.Spec

/-!
# The neighbourhood mean from the edge columns

The same mean as the specification's, as a function of the two columns of node numbers (sources and destinations)
instead of the edge list they are cut from: the second round of the kernel program reuses the columns it cut for the first.
-/

noncomputable section

namespace Cert.Sage

open Idealize.ShloMosaic Idealize.ShloMosaic.ValueIdx Cert.ReferenceIdeal Cert.ReferenceIdeal.Gen

/-- The neighbourhood mean from the two edge columns (source and destination nodes) already cut out of the edge list. -/
def meanAggOf (h : FVec Ideal S50000x128 .f32) (s d : IVec S500000 32) : FVec Ideal S50000x128 .f32 :=
  Host.divf
    (Host.scatterAdd scatter_S50000x128_S500000x1_S500000x128_1_0_0_1
      (broadcastInDim S50000x128 ![] bcast_S_S50000x128 (constant S_ .f32 0x00000000#32))
      (broadcastInDim S500000x1 ![0] bcast_S500000_S500000x1_0 d)
      (Host.gather gather_S50000x128_S500000x1_S500000x128_1_0_n_n_0_1_1128 h
        (broadcastInDim S500000x1 ![0] bcast_S500000_S500000x1_0 (wrapEdge s))))
    (broadcastInDim S50000x128 ![0, 1] bcast_S50000x1_S50000x128_0_1
      (maximumf
        (Host.scatterAdd scatter_S50000x1_S500000x1_S500000x1_1_0_0_1
          (broadcastInDim S50000x1 ![] bcast_S_S50000x1 (constant S_ .f32 0x00000000#32))
          (broadcastInDim S500000x1 ![0] bcast_S500000_S500000x1_0 d)
          (broadcastInDim S500000x1 ![] bcast_S_S500000x1 (constant S_ .f32 0x3F800000#32)))
        (broadcastInDim S50000x1 ![] bcast_S_S50000x1 (constant S_ .f32 0x3F800000#32))))

/-- The neighbourhood mean is that function of the edge list's two rows. -/
theorem meanAgg_eq (h : FVec Ideal S50000x128 .f32) (e : IVec S2x500000 32) :
    meanAgg h e = meanAggOf h (edgeSrc e) (edgeDst e) := rfl

end Cert.Sage

end
-- ==== Proof.KHost.lean ====
import proofs.«104326_j68582037782752_1_alg».proof.Proof.Gen.KernelIdeal.Launch
import proofs.«104326_j68582037782752_1_alg».proof.Proof.SpecCols
import Idealize.ShloMosaic.Lib.StableHlo.Run

/-!
# The kernel program's host stretches, read

Between its three regions the program runs four stretches of host operations. Each lemma here reads one buffer after
one stretch, from ANY contents U before it, as the specification's term of the buffers the stretch reads: the edge
columns and the neighbourhood mean before the first region; the neighbourhood mean of the first region's output (from
the edge columns computed earlier) before the second; the two gathers by pairs and the scorer's weights re-laid before
the third; the final reshape. Gathers, scatter-additions and divisions are never opened: both sides are the same
operations of the same operands.
-/

set_option maxRecDepth 16384

noncomputable section

namespace Cert.Sage

open Idealize.ShloMosaic Idealize.ShloMosaic.TcCoe Idealize.ShloMosaic.ValueIdx Idealize.SL.Sem Idealize.ShloMosaic.StableHlo
open Cert.KernelIdeal Cert.KernelIdeal.Gen

variable (U : Valuation τ sig (Elt Ideal))

/-! ## Before the first region -/

/-- The edges' source nodes, cut from the edge list. -/
theorem host0_v1 : StableHlo.after (hostOps0 (F := Ideal)) U (Proc.devRef .tc main_v1) = edgeSrc (U (Proc.devRef .tc main_arg1)) := by
  after_results_simp <;> rfl
/-- The edges' destination nodes, cut from the edge list. -/
theorem host0_v3 : StableHlo.after (hostOps0 (F := Ideal)) U (Proc.devRef .tc main_v3) = edgeDst (U (Proc.devRef .tc main_arg1)) := by
  after_results_simp <;> rfl
/-- The neighbourhood mean of the node features. -/
theorem host0_v21 : StableHlo.after (hostOps0 (F := Ideal)) U (Proc.devRef .tc main_v21)
    = meanAgg (U (Proc.devRef .tc main_arg0)) (U (Proc.devRef .tc main_arg1)) := by
  after_results_simp <;> rfl
/-- The first round's neighbour weight, transposed. -/
theorem host0_v22 : StableHlo.after (hostOps0 (F := Ideal)) U (Proc.devRef .tc main_v22)
    = transpose S128x128 [1, 0] (U (Proc.devRef .tc main_arg3)) transposes_S128x128_S128x128_1_0 := by
  after_results_simp <;> rfl
/-- The first round's self weight, transposed. -/
theorem host0_v23 : StableHlo.after (hostOps0 (F := Ideal)) U (Proc.devRef .tc main_v23)
    = transpose S128x128 [1, 0] (U (Proc.devRef .tc main_arg4)) transposes_S128x128_S128x128_1_0 := by
  after_results_simp <;> rfl
theorem host0_keep_arg0 : StableHlo.after (hostOps0 (F := Ideal)) U (Proc.devRef .tc main_arg0) = U (Proc.devRef .tc main_arg0) := by
  after_results_simp <;> rfl
theorem host0_keep_arg2 : StableHlo.after (hostOps0 (F := Ideal)) U (Proc.devRef .tc main_arg2) = U (Proc.devRef .tc main_arg2) := by
  after_results_simp <;> rfl
theorem host0_keep_arg5 : StableHlo.after (hostOps0 (F := Ideal)) U (Proc.devRef .tc main_arg5) = U (Proc.devRef .tc main_arg5) := by
  after_results_simp <;> rfl
theorem host0_keep_arg6 : StableHlo.after (hostOps0 (F := Ideal)) U (Proc.devRef .tc main_arg6) = U (Proc.devRef .tc main_arg6) := by
  after_results_simp <;> rfl
theorem host0_keep_arg7 : StableHlo.after (hostOps0 (F := Ideal)) U (Proc.devRef .tc main_arg7) = U (Proc.devRef .tc main_arg7) := by
  after_results_simp <;> rfl
theorem host0_keep_arg8 : StableHlo.after (hostOps0 (F := Ideal)) U (Proc.devRef .tc main_arg8) = U (Proc.devRef .tc main_arg8) := by
  after_results_simp <;> rfl
theorem host0_keep_arg9 : StableHlo.after (hostOps0 (F := Ideal)) U (Proc.devRef .tc main_arg9) = U (Proc.devRef .tc main_arg9) := by
  after_results_simp <;> rfl
theorem host0_keep_arg10 : StableHlo.after (hostOps0 (F := Ideal)) U (Proc.devRef .tc main_arg10) = U (Proc.devRef .tc main_arg10) := by
  after_results_simp <;> rfl
theorem host0_keep_arg11 : StableHlo.after (hostOps0 (F := Ideal)) U (Proc.devRef .tc main_arg11) = U (Proc.devRef .tc main_arg11) := by
  after_results_simp <;> rfl
theorem host0_keep_arg12 : StableHlo.after (hostOps0 (F := Ideal)) U (Proc.devRef .tc main_arg12) = U (Proc.devRef .tc main_arg12) := by
  after_results_simp <;> rfl

/-! ## Between the first and the second region -/

/-- The neighbourhood mean of the first round's output, from the edge columns cut earlier. -/
theorem host1_v42 : StableHlo.after (hostOps1 (F := Ideal)) U (Proc.devRef .tc main_v42)
    = meanAggOf (U (Proc.devRef .tc main_v24)) (U (Proc.devRef .tc main_v1)) (U (Proc.devRef .tc main_v3)) := by
  after_results_simp <;> rfl
/-- The second round's neighbour weight, transposed. -/
theorem host1_v43 : StableHlo.after (hostOps1 (F := Ideal)) U (Proc.devRef .tc main_v43)
    = transpose S128x128 [1, 0] (U (Proc.devRef .tc main_arg6)) transposes_S128x128_S128x128_1_0 := by
  after_results_simp <;> rfl
/-- The second round's self weight, transposed. -/
theorem host1_v44 : StableHlo.after (hostOps1 (F := Ideal)) U (Proc.devRef .tc main_v44)
    = transpose S128x128 [1, 0] (U (Proc.devRef .tc main_arg7)) transposes_S128x128_S128x128_1_0 := by
  after_results_simp <;> rfl
theorem host1_keep_v24 : StableHlo.after (hostOps1 (F := Ideal)) U (Proc.devRef .tc main_v24) = U (Proc.devRef .tc main_v24) := by
  after_results_simp <;> rfl
theorem host1_keep_arg2 : StableHlo.after (hostOps1 (F := Ideal)) U (Proc.devRef .tc main_arg2) = U (Proc.devRef .tc main_arg2) := by
  after_results_simp <;> rfl
theorem host1_keep_arg8 : StableHlo.after (hostOps1 (F := Ideal)) U (Proc.devRef .tc main_arg8) = U (Proc.devRef .tc main_arg8) := by
  after_results_simp <;> rfl
theorem host1_keep_arg9 : StableHlo.after (hostOps1 (F := Ideal)) U (Proc.devRef .tc main_arg9) = U (Proc.devRef .tc main_arg9) := by
  after_results_simp <;> rfl
theorem host1_keep_arg10 : StableHlo.after (hostOps1 (F := Ideal)) U (Proc.devRef .tc main_arg10) = U (Proc.devRef .tc main_arg10) := by
  after_results_simp <;> rfl
theorem host1_keep_arg11 : StableHlo.after (hostOps1 (F := Ideal)) U (Proc.devRef .tc main_arg11) = U (Proc.devRef .tc main_arg11) := by
  after_results_simp <;> rfl
theorem host1_keep_arg12 : StableHlo.after (hostOps1 (F := Ideal)) U (Proc.devRef .tc main_arg12) = U (Proc.devRef .tc main_arg12) := by
  after_results_simp <;> rfl

/-! ## Between the second and the third region -/

/-- The second round's rows at the pairs' first nodes. -/
theorem host2_v56 : StableHlo.after (hostOps2 (F := Ideal)) U (Proc.devRef .tc main_v56)
    = pick (U (Proc.devRef .tc main_v45)) (pairCol0 (U (Proc.devRef .tc main_arg2))) := by
  after_results_simp <;> rfl
/-- The second round's rows at the pairs' second nodes. -/
theorem host2_v63 : StableHlo.after (hostOps2 (F := Ideal)) U (Proc.devRef .tc main_v63)
    = pick (U (Proc.devRef .tc main_v45)) (pairCol1 (U (Proc.devRef .tc main_arg2))) := by
  after_results_simp <;> rfl
/-- The first half of the scorer's hidden weight, transposed. -/
theorem host2_v65 : StableHlo.after (hostOps2 (F := Ideal)) U (Proc.devRef .tc main_v65)
    = transpose S128x128 [1, 0] (extractStridedSlice S128x128 ![0, 0] (U (Proc.devRef .tc main_arg9)) slices_S128x256_S128x128_0_0) transposes_S128x128_S128x128_1_0 := by
  after_results_simp <;> rfl
/-- The second half of the scorer's hidden weight, transposed. -/
theorem host2_v67 : StableHlo.after (hostOps2 (F := Ideal)) U (Proc.devRef .tc main_v67)
    = transpose S128x128 [1, 0] (extractStridedSlice S128x128 ![0, 128] (U (Proc.devRef .tc main_arg9)) slices_S128x256_S128x128_0_128) transposes_S128x128_S128x128_1_0 := by
  after_results_simp <;> rfl
/-- The scorer's output weight, as a column. -/
theorem host2_v68 : StableHlo.after (hostOps2 (F := Ideal)) U (Proc.devRef .tc main_v68)
    = transpose S128x1 [1, 0] (U (Proc.devRef .tc main_arg11)) transposes_S1x128_S128x1_1_0 := by
  after_results_simp <;> rfl
theorem host2_keep_arg10 : StableHlo.after (hostOps2 (F := Ideal)) U (Proc.devRef .tc main_arg10) = U (Proc.devRef .tc main_arg10) := by
  after_results_simp <;> rfl
theorem host2_keep_arg12 : StableHlo.after (hostOps2 (F := Ideal)) U (Proc.devRef .tc main_arg12) = U (Proc.devRef .tc main_arg12) := by
  after_results_simp <;> rfl

/-! ## After the third region -/

/-- The scores' one column dropped. -/
theorem host3_v70 : StableHlo.after (hostOps3 (F := Ideal)) U (Proc.devRef .tc main_v70)
    = shapeCast _ (U (Proc.devRef .tc main_v69)) shapeCasts_S200000x1_S200000 := by
  after_results_simp <;> rfl

end Cert.Sage

end
-- ==== Proof.KWeights.lean ====
import proofs.«104326_j68582037782752_1_alg».proof.Proof.Gen.KernelIdeal
import proofs.«104326_j68582037782752_1_alg».proof.Proof.Spec
import Idealize.ShloMosaic.Lib.Pipeline.Value

/-!
# The kernel program's re-laid weights

Before each region the program transposes the weight matrices on the host (and, for the scorer, first cuts the
[128, 256] weight into its two [128, 128] halves). Read at an index, each re-laid matrix is the given one at the
swapped index (shifted by 128 columns for the second half): the specification's tr128, w3lo, w3hi and trCol.
-/

noncomputable section

namespace Cert.Sage

open Idealize.ShloMosaic Idealize.ShloMosaic.ValueIdx
open Cert.KernelIdeal Cert.KernelIdeal.Gen

/-- A transposed square weight at (k, c) is the weight at (c, k). -/
theorem transpose_eq_tr128 (w : FVec Ideal S128x128 .f32) :
    transpose S128x128 [1, 0] w transposes_S128x128_S128x128_1_0 = tr128 w := by
  funext j
  unfold tr128
  exact transpose_apply [1, 0] w transposes_S128x128_S128x128_1_0 j _ (fun b => match b with
    | ⟨0, _⟩ => rfl
    | ⟨1, _⟩ => rfl)

/-- The transposed first half of the scorer's weight at (k, j) is the weight at (j, k). -/
theorem transpose_slice_eq_w3lo (w : FVec Ideal S128x256 .f32) :
    transpose S128x128 [1, 0] (extractStridedSlice S128x128 ![0, 0] w slices_S128x256_S128x128_0_0) transposes_S128x128_S128x128_1_0
      = w3lo w := by
  funext j
  unfold w3lo
  refine (transpose_apply [1, 0] _ transposes_S128x128_S128x128_1_0 j
    (ix2 (⟨(j 1).val, idx2_lt1 j⟩ : Fin 128) (⟨(j 0).val, idx2_lt0 j⟩ : Fin 128)) (fun b => match b with
    | ⟨0, _⟩ => rfl
    | ⟨1, _⟩ => rfl)).trans ?_
  exact extractStridedSlice_apply ![0, 0] w slices_S128x256_S128x128_0_0 _ _ (fun a => match a with
    | ⟨0, _⟩ => by show (j 1).val = 0 + (j 1).val; omega
    | ⟨1, _⟩ => by show (j 0).val = 0 + (j 0).val; omega)

/-- The transposed second half of the scorer's weight at (k, j) is the weight at (j, 128 + k). -/
theorem transpose_slice_eq_w3hi (w : FVec Ideal S128x256 .f32) :
    transpose S128x128 [1, 0] (extractStridedSlice S128x128 ![0, 128] w slices_S128x256_S128x128_0_128) transposes_S128x128_S128x128_1_0
      = w3hi w := by
  funext j
  unfold w3hi
  refine (transpose_apply [1, 0] _ transposes_S128x128_S128x128_1_0 j
    (ix2 (⟨(j 1).val, idx2_lt1 j⟩ : Fin 128) (⟨(j 0).val, idx2_lt0 j⟩ : Fin 128)) (fun b => match b with
    | ⟨0, _⟩ => rfl
    | ⟨1, _⟩ => rfl)).trans ?_
  exact extractStridedSlice_apply ![0, 128] w slices_S128x256_S128x128_0_128 _ _ (fun a => match a with
    | ⟨0, _⟩ => by show (j 1).val = 0 + (j 1).val; omega
    | ⟨1, _⟩ => by show 128 + (j 0).val = 128 + (j 0).val; rfl)

/-- The output weight transposed to a column at (j, 0) is the weight at (0, j). -/
theorem transpose_eq_trCol (w : FVec Ideal S1x128 .f32) :
    transpose S128x1 [1, 0] w transposes_S1x128_S128x1_1_0 = trCol w := by
  funext j
  unfold trCol
  exact transpose_apply [1, 0] w transposes_S1x128_S128x1_1_0 j _ (fun b => match b with
    | ⟨0, _⟩ => rfl
    | ⟨1, _⟩ => by show (0 : ℕ) = (j 1).val; have h : (j 1).val < 1 := (j 1).isLt; omega)

end Cert.Sage

end
-- ==== Proof.KValue.lean ====
import proofs.«104326_j68582037782752_1_alg».proof.Proof.Gen.KernelIdeal.Frame
import proofs.«104326_j68582037782752_1_alg».proof.Proof.KBody0
import proofs.«104326_j68582037782752_1_alg».proof.Proof.KBody1
import proofs.«104326_j68582037782752_1_alg».proof.Proof.KBody2
import proofs.«104326_j68582037782752_1_alg».proof.Proof.KRegion0
import proofs.«104326_j68582037782752_1_alg».proof.Proof.KRegion1
import proofs.«104326_j68582037782752_1_alg».proof.Proof.KRegion2
import proofs.«104326_j68582037782752_1_alg».proof.Proof.KHost
import proofs.«104326_j68582037782752_1_alg».proof.Proof.KWeights

/-!
# The kernel program's result is the specification

The contents of a core's buffers at the seven boundaries of the program (launch, after each host stretch, after
each region) are folded one into the next. Reading the fold backwards from the result buffer: the final reshape of
the third region's output; that output is the scores of the rows gathered from the second region's output at the
pairs' nodes; the second region's output is the dense layer of the neighbourhood mean of the first region's output and
of that output itself; the first region's output is the dense layer of the neighbourhood mean of the node features and
of the features. Every argument is read at its launch contents: nothing before a read writes it.
-/

set_option maxRecDepth 16384

noncomputable section

namespace Cert.Sage

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

theorem body0 : Body0 := out0_5_apply
theorem body1 : Body1 := out1_5_apply
theorem body2 : Body2 := out2_7_apply

/-! ## The boundaries, unfolded one step -/

/-- At launch a buffer holds the launch memory. -/
theorem W0_read (b : Ref sig .tc) : W0 m ρ c (Proc.devRef .tc b) = m ((c : Thread nD τ).loc b) := rfl
theorem V1_eq (b : Ref sig .tc) : V1 m ρ c b = StableHlo.after (hostOps0 (F := Ideal)) (W0 m ρ c) (Proc.devRef .tc b) := rfl
theorem V3_eq (b : Ref sig .tc) : V3 m ρ c b = StableHlo.after (hostOps1 (F := Ideal)) (W2 m ρ c) (Proc.devRef .tc b) := rfl
theorem V5_eq (b : Ref sig .tc) : V5 m ρ c b = StableHlo.after (hostOps2 (F := Ideal)) (W4 m ρ c) (Proc.devRef .tc b) := rfl
theorem W7_eq (b : Ref sig .tc) : W7 m ρ c (Proc.devRef .tc b) = StableHlo.after (hostOps3 (F := Ideal)) (W6 m ρ c) (Proc.devRef .tc b) := rfl

/-! ## After the first region -/

/-- A buffer the first region does not write holds after it what the first host stretch left. -/
theorem W2_old (b : Ref sig .tc) (hb : ∀ w, Pipeline.arrRef spec0 w ≠ b) :
    W2 m ρ c (Proc.devRef .tc b) = StableHlo.after (hostOps0 (F := Ideal)) (W0 m ρ c) (Proc.devRef .tc b) :=
  W2_of_ne m ρ c b hb

/-- The node features after the first round. -/
theorem W2_v24 : W2 m ρ c (Proc.devRef .tc main_v24)
    = round (m ((c : Thread nD τ).loc main_arg0)) (m ((c : Thread nD τ).loc main_arg1)) (m ((c : Thread nD τ).loc main_arg3)) (m ((c : Thread nD τ).loc main_arg4)) (m ((c : Thread nD τ).loc main_arg5)) := by
  refine ((W2_arr m ρ c 5).trans (arr0 (V1 m ρ) body0 c)).trans ?_
  rw [V1_eq, V1_eq, V1_eq, V1_eq, V1_eq, host0_v21, host0_keep_arg0, host0_v22, host0_v23, host0_keep_arg5,
    transpose_eq_tr128, transpose_eq_tr128]
  rfl

theorem W2_v1 : W2 m ρ c (Proc.devRef .tc main_v1) = edgeSrc (m ((c : Thread nD τ).loc main_arg1)) :=
  (W2_old m ρ c main_v1 (by decide)).trans (host0_v1 _)
theorem W2_v3 : W2 m ρ c (Proc.devRef .tc main_v3) = edgeDst (m ((c : Thread nD τ).loc main_arg1)) :=
  (W2_old m ρ c main_v3 (by decide)).trans (host0_v3 _)
theorem W2_arg2 : W2 m ρ c (Proc.devRef .tc main_arg2) = m ((c : Thread nD τ).loc main_arg2) :=
  (W2_old m ρ c main_arg2 (by decide)).trans (host0_keep_arg2 _)
theorem W2_arg6 : W2 m ρ c (Proc.devRef .tc main_arg6) = m ((c : Thread nD τ).loc main_arg6) :=
  (W2_old m ρ c main_arg6 (by decide)).trans (host0_keep_arg6 _)
theorem W2_arg7 : W2 m ρ c (Proc.devRef .tc main_arg7) = m ((c : Thread nD τ).loc main_arg7) :=
  (W2_old m ρ c main_arg7 (by decide)).trans (host0_keep_arg7 _)
theorem W2_arg8 : W2 m ρ c (Proc.devRef .tc main_arg8) = m ((c : Thread nD τ).loc main_arg8) :=
  (W2_old m ρ c main_arg8 (by decide)).trans (host0_keep_arg8 _)
theorem W2_arg9 : W2 m ρ c (Proc.devRef .tc main_arg9) = m ((c : Thread nD τ).loc main_arg9) :=
  (W2_old m ρ c main_arg9 (by decide)).trans (host0_keep_arg9 _)
theorem W2_arg10 : W2 m ρ c (Proc.devRef .tc main_arg10) = m ((c : Thread nD τ).loc main_arg10) :=
  (W2_old m ρ c main_arg10 (by decide)).trans (host0_keep_arg10 _)
theorem W2_arg11 : W2 m ρ c (Proc.devRef .tc main_arg11) = m ((c : Thread nD τ).loc main_arg11) :=
  (W2_old m ρ c main_arg11 (by decide)).trans (host0_keep_arg11 _)
theorem W2_arg12 : W2 m ρ c (Proc.devRef .tc main_arg12) = m ((c : Thread nD τ).loc main_arg12) :=
  (W2_old m ρ c main_arg12 (by decide)).trans (host0_keep_arg12 _)

/-! ## After the second region -/

/-- A buffer the second region does not write holds after it what the second host stretch left. -/
theorem W4_old (b : Ref sig .tc) (hb : ∀ w, Pipeline.arrRef spec1 w ≠ b) :
    W4 m ρ c (Proc.devRef .tc b) = StableHlo.after (hostOps1 (F := Ideal)) (W2 m ρ c) (Proc.devRef .tc b) :=
  W4_of_ne m ρ c b hb

/-- The node features after the second round. -/
theorem W4_v45 : W4 m ρ c (Proc.devRef .tc main_v45)
    = round (round (m ((c : Thread nD τ).loc main_arg0)) (m ((c : Thread nD τ).loc main_arg1)) (m ((c : Thread nD τ).loc main_arg3)) (m ((c : Thread nD τ).loc main_arg4)) (m ((c : Thread nD τ).loc main_arg5)))
        (m ((c : Thread nD τ).loc main_arg1)) (m ((c : Thread nD τ).loc main_arg6)) (m ((c : Thread nD τ).loc main_arg7)) (m ((c : Thread nD τ).loc main_arg8)) := by
  refine ((W4_arr m ρ c 5).trans (arr1 (V3 m ρ) body1 c)).trans ?_
  rw [V3_eq, V3_eq, V3_eq, V3_eq, V3_eq, host1_v42, host1_keep_v24, host1_v43, host1_v44, host1_keep_arg8,
    W2_v24, W2_v1, W2_v3, W2_arg6, W2_arg7, W2_arg8, transpose_eq_tr128, transpose_eq_tr128, ← meanAgg_eq]
  rfl

theorem W4_arg2 : W4 m ρ c (Proc.devRef .tc main_arg2) = m ((c : Thread nD τ).loc main_arg2) :=
  (W4_old m ρ c main_arg2 (by decide)).trans ((host1_keep_arg2 _).trans (W2_arg2 m ρ c))
theorem W4_arg9 : W4 m ρ c (Proc.devRef .tc main_arg9) = m ((c : Thread nD τ).loc main_arg9) :=
  (W4_old m ρ c main_arg9 (by decide)).trans ((host1_keep_arg9 _).trans (W2_arg9 m ρ c))
theorem W4_arg10 : W4 m ρ c (Proc.devRef .tc main_arg10) = m ((c : Thread nD τ).loc main_arg10) :=
  (W4_old m ρ c main_arg10 (by decide)).trans ((host1_keep_arg10 _).trans (W2_arg10 m ρ c))
theorem W4_arg11 : W4 m ρ c (Proc.devRef .tc main_arg11) = m ((c : Thread nD τ).loc main_arg11) :=
  (W4_old m ρ c main_arg11 (by decide)).trans ((host1_keep_arg11 _).trans (W2_arg11 m ρ c))
theorem W4_arg12 : W4 m ρ c (Proc.devRef .tc main_arg12) = m ((c : Thread nD τ).loc main_arg12) :=
  (W4_old m ρ c main_arg12 (by decide)).trans ((host1_keep_arg12 _).trans (W2_arg12 m ρ c))

/-! ## The result -/

/-- The result buffer at the last boundary is the specification of the thirteen arguments. -/
theorem kernel_result : W7 m ρ c (Proc.devRef .tc main_v70)
    = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [W7_eq, host3_v70, (W6_arr m ρ c 7).trans (arr2 (V5 m ρ) body2 c)]
  rw [V5_eq, V5_eq, V5_eq, V5_eq, V5_eq, V5_eq, V5_eq, host2_v56, host2_v63, host2_v65, host2_v67, host2_keep_arg10, host2_v68,
    host2_keep_arg12, W4_v45, W4_arg2, W4_arg9, W4_arg10, W4_arg11, W4_arg12,
    transpose_slice_eq_w3lo, transpose_slice_eq_w3hi, transpose_eq_trCol]
  rfl

end Cert.Sage

end
-- ==== Proof.RefSide.lean ====
import proofs.«104326_j68582037782752_1_alg».proof.Proof.Gen.ReferenceIdeal.Read
import proofs.«104326_j68582037782752_1_alg».proof.Proof.Spec
import Idealize.ShloMosaic.Lib.IdealHost

/-!
# The reference computes `whole`

The reference program's result, as the generated modules state it (`res_main_v94`, equal to the stage `val_main_v94` of
the thirteen arguments), is the function `whole` of the specification.

* The neighbourhood mean is a composition of host operations that is never opened: the reference's chain and `meanAgg`
  are the same term (`mean1`, `mean2`).
* A dense layer `max (agg · Wlᵀ + x · Wrᵀ + b) 0` is read entry by entry: a product with a transposed weight is the
  sum over the shared axis (`dot1_apply`), the bias is broadcast along the rows, and the rectifier compares with the
  pattern of zero (`dense_eq`); both rounds are instances (`round1`, `round2`).
* The scorer gathers two rows per pair (`pick0`, `pick1`), joins them along the feature axis and multiplies by W3ᵀ:
  the sum over 256 joined features splits into the first and the last 128 (`sum_256`, `cat_lo`, `cat_hi`), which is
  the dense layer of the two rows against the two halves of W3 (`hidden_apply`). The output layer is one more sum
  (`pre_apply`), and `1 / (1 + exp (-s))` with both ones the pattern `0x3F800000` is the logistic function
  (`logistic_apply`). The final reshape is the same on both sides (`val_eq_whole`).

Sums are over the extended reals, a commutative monoid; nothing is assumed finite.
-/

noncomputable section

namespace Cert.Sage

open Idealize.ShloMosaic Idealize.ShloMosaic.TcCoe Idealize.SL.Sem Idealize.ShloMosaic.ValueIdx Cert.ReferenceIdeal
  Cert.ReferenceIdeal.Gen Cert.ReferenceIdeal.Read
open scoped BigOperators

/-! ## The neighbourhood mean -/

/-- The first round's neighbourhood mean: gather by source, scatter-add by destination, divide by the clamped count —
    the reference's chain of host operations is `meanAgg` term for term. -/
theorem mean1 (x0 : FVec Ideal S50000x128 .f32) (x1 : IVec S2x500000 32) :
    val_main_v21 (F := Ideal) x0 x1 = meanAgg x0 x1 := by
  unfold val_main_v21 val_main_v13 val_main_v20 val_main_v19 val_main_v17 val_main_v18 val_main_v16 val_main_v15 val_main_v14
    val_main_v12 val_main_v11 val_main_v10 val_main_v9 val_main_v8 val_main_v7 val_main_v6 val_main_v5 val_main_v4 val_main_v3
    val_main_v2 val_main_v1 val_main_v0 val_main_c val_main_c_0 val_main_cst val_main_cst_1 val_main_cst_2 val_main_cst_3
    meanAgg dstCol srcCol wrapEdge edgeSrc edgeDst
  rfl

/-- The second round's neighbourhood mean, of the first round's features. -/
theorem mean2 (x0 : FVec Ideal S50000x128 .f32) (x1 : IVec S2x500000 32) (x3 x4 : FVec Ideal S128x128 .f32) (x5 : FVec Ideal S128 .f32) :
    val_main_v48 (F := Ideal) x0 x1 x3 x4 x5 = meanAgg (val_main_v30 (F := Ideal) x0 x1 x3 x4 x5) x1 := by
  unfold val_main_v48 val_main_v40 val_main_v47 val_main_v46 val_main_v44 val_main_v45 val_main_v43 val_main_v42 val_main_v41
    val_main_v39 val_main_v38 val_main_v37 val_main_v36 val_main_v35 val_main_v34 val_main_v33 val_main_v32 val_main_v31 val_main_v3
    val_main_v2 val_main_v1 val_main_v0 val_main_c_4 val_main_c_5 val_main_cst_6 val_main_cst_7 val_main_cst_8 val_main_cst_9
    meanAgg dstCol srcCol wrapEdge edgeSrc edgeDst
  rfl

/-! ## The dense layer -/

/-- An entry of `a · wᵀ`: row `i 0` of `a` against column `i 1` of the transposed weight, summed over the 128 shared
    coordinates. -/
theorem dot1_apply (a : FVec Ideal S50000x128 .f32) (w : FVec Ideal S128x128 .f32) (i : S50000x128.Idx) :
    val_main_v25 (F := Ideal) a w i
      = ∑ k : Fin 128, a (ix2 (⟨(i 0).val, idx2_lt0 i⟩ : Fin 50000) k) * tr128 w (ix2 k (⟨(i 1).val, idx2_lt1 i⟩ : Fin 128)) := by
  rw [val_main_v25_apply]
  refine Finset.sum_congr rfl fun k _ => ?_
  have e1 : lidx_main_v25 i k = ix2 (⟨(i 0).val, idx2_lt0 i⟩ : Fin 50000) k := by
    funext a; match a with | ⟨0, _⟩ => rfl | ⟨1, _⟩ => rfl
  have e2 : val_main_v24 (F := Ideal) w (ridx_main_v25 i k) = tr128 w (ix2 k (⟨(i 1).val, idx2_lt1 i⟩ : Fin 128)) := by
    rw [val_main_v24_apply]; unfold tr128
    exact congrArg w (by funext a; match a with | ⟨0, _⟩ => rfl | ⟨1, _⟩ => rfl)
  rw [e1, e2]

/-- The dense layer over variables: `max (agg · wlᵀ + x · wrᵀ + b) 0`, the bias broadcast along the rows and the zero
    the pattern `0x00000000`, is `layer agg x wl wr b`, entry by entry. -/
theorem dense_eq (agg x : FVec Ideal S50000x128 .f32) (wl wr : FVec Ideal S128x128 .f32) (b : FVec Ideal S128 .f32) :
    maximumf (addf (addf (val_main_v25 (F := Ideal) agg wl) (val_main_v25 (F := Ideal) x wr)) (val_main_v28 (F := Ideal) b))
      (val_main_call0_v0 (F := Ideal)) = layer agg x wl wr b := by
  funext i
  rw [maximumf_apply, addf_apply, addf_apply, dot1_apply, dot1_apply, val_main_v28_apply, val_main_v27_apply,
    val_main_call0_v0_apply, val_main_call0_cst_apply]
  have eb : idx_main_v27 (idx_main_v28 i) = ix1 (⟨(i 1).val, idx2_lt1 i⟩ : Fin 128) := by
    funext a; match a with | ⟨0, _⟩ => rfl
  rw [eb]
  rfl

/-- The features after the first round. -/
theorem round1 (x0 : FVec Ideal S50000x128 .f32) (x1 : IVec S2x500000 32) (x3 x4 : FVec Ideal S128x128 .f32) (x5 : FVec Ideal S128 .f32) :
    val_main_v30 (F := Ideal) x0 x1 x3 x4 x5 = round x0 x1 x3 x4 x5 := by
  unfold round
  rw [← mean1]
  exact dense_eq (val_main_v21 (F := Ideal) x0 x1) x0 x3 x4 x5

/-- The features after the second round, from those after the first. -/
theorem round2 (x0 : FVec Ideal S50000x128 .f32) (x1 : IVec S2x500000 32) (x3 x4 : FVec Ideal S128x128 .f32) (x5 : FVec Ideal S128 .f32)
    (x6 x7 : FVec Ideal S128x128 .f32) (x8 : FVec Ideal S128 .f32) :
    val_main_v57 (F := Ideal) x0 x1 x3 x4 x5 x6 x7 x8 = round (val_main_v30 (F := Ideal) x0 x1 x3 x4 x5) x1 x6 x7 x8 := by
  unfold round
  rw [← mean2]
  exact dense_eq (val_main_v48 (F := Ideal) x0 x1 x3 x4 x5) (val_main_v30 (F := Ideal) x0 x1 x3 x4 x5) x6 x7 x8

/-! ## The scorer -/

/-- The rows of the final features at the pairs' first nodes. -/
theorem pick0 (x0 : FVec Ideal S50000x128 .f32) (x1 : IVec S2x500000 32) (x2 : IVec S200000x2 32) (x3 x4 : FVec Ideal S128x128 .f32)
    (x5 : FVec Ideal S128 .f32) (x6 x7 : FVec Ideal S128x128 .f32) (x8 : FVec Ideal S128 .f32) :
    val_main_v66 (F := Ideal) x0 x1 x2 x3 x4 x5 x6 x7 x8
      = pick (val_main_v57 (F := Ideal) x0 x1 x3 x4 x5 x6 x7 x8) (pairCol0 x2) := by
  unfold val_main_v66 val_main_v65 val_main_v64 val_main_v63 val_main_v62 val_main_v61 val_main_v60 val_main_v59 val_main_v58
    val_main_c_10 val_main_c_11 pick pairCol0 wrapPair
  rfl

/-- The rows of the final features at the pairs' second nodes. -/
theorem pick1 (x0 : FVec Ideal S50000x128 .f32) (x1 : IVec S2x500000 32) (x2 : IVec S200000x2 32) (x3 x4 : FVec Ideal S128x128 .f32)
    (x5 : FVec Ideal S128 .f32) (x6 x7 : FVec Ideal S128x128 .f32) (x8 : FVec Ideal S128 .f32) :
    val_main_v75 (F := Ideal) x0 x1 x2 x3 x4 x5 x6 x7 x8
      = pick (val_main_v57 (F := Ideal) x0 x1 x3 x4 x5 x6 x7 x8) (pairCol1 x2) := by
  unfold val_main_v75 val_main_v74 val_main_v73 val_main_v72 val_main_v71 val_main_v70 val_main_v69 val_main_v68 val_main_v67
    val_main_c_12 val_main_c_13 pick pairCol1 wrapPair
  rfl

/-- An entry of a [200000, 256] × [256, 128] product: the sum over the 256 shared coordinates. -/
theorem dot2_apply (y0 : FVec Ideal S200000x256 .f32) (y1 : FVec Ideal S256x128 .f32) (i : S200000x128.Idx) :
    Host.dotGeneral dot_S200000x256_S256x128_S200000x128_1_0_0_1_n_n none y0 y1 i
      = ∑ k : Fin 256, y0 (ix2 (⟨(i 0).val, idx2_lt0 i⟩ : Fin 200000) k) * y1 (ix2 k (⟨(i 1).val, idx2_lt1 i⟩ : Fin 128)) := by
  simp only [Host.dotGeneral]
  rw [Ideal.dotGeneral_apply, ← Equiv.sum_comp (ValueIdx.contrEquiv1 dot_S200000x256_S256x128_S200000x128_1_0_0_1_n_n 256 rfl rfl).symm]
  refine Finset.sum_congr rfl fun k _ => ?_
  have hk := ValueIdx.contrEquiv1_symm_val dot_S200000x256_S256x128_S200000x128_1_0_0_1_n_n 256 rfl rfl k
  have el : dot_S200000x256_S256x128_S200000x128_1_0_0_1_n_n.lhsIdx i ((ValueIdx.contrEquiv1 dot_S200000x256_S256x128_S200000x128_1_0_0_1_n_n 256 rfl rfl).symm k)
      = ix2 (⟨(i 0).val, idx2_lt0 i⟩ : Fin 200000) k := funext fun a => Fin.ext (by
    match a with
    | ⟨0, _⟩ => exact lhs_main_v78_0 _ _
    | ⟨1, _⟩ => exact (lhs_main_v78_1 _ _).trans hk)
  have er : dot_S200000x256_S256x128_S200000x128_1_0_0_1_n_n.rhsIdx i ((ValueIdx.contrEquiv1 dot_S200000x256_S256x128_S200000x128_1_0_0_1_n_n 256 rfl rfl).symm k)
      = ix2 k (⟨(i 1).val, idx2_lt1 i⟩ : Fin 128) := funext fun a => Fin.ext (by
    match a with
    | ⟨0, _⟩ => exact (rhs_main_v78_0 _ _).trans hk
    | ⟨1, _⟩ => exact rhs_main_v78_1 _ _)
  rw [el, er]

/-- An entry of a [200000, 128] × [128, 1] product: the sum over the 128 shared coordinates. -/
theorem dot3_apply (y0 : FVec Ideal S200000x128 .f32) (y1 : FVec Ideal S128x1 .f32) (i : S200000x1.Idx) :
    Host.dotGeneral dot_S200000x128_S128x1_S200000x1_1_0_0_1_n_n none y0 y1 i
      = ∑ k : Fin 128, y0 (ix2 (⟨(i 0).val, idx2_lt0 i⟩ : Fin 200000) k) * y1 (ix2 k (⟨(i 1).val, idx2_lt1 i⟩ : Fin 1)) := by
  simp only [Host.dotGeneral]
  rw [Ideal.dotGeneral_apply, ← Equiv.sum_comp (ValueIdx.contrEquiv1 dot_S200000x128_S128x1_S200000x1_1_0_0_1_n_n 128 rfl rfl).symm]
  refine Finset.sum_congr rfl fun k _ => ?_
  have hk := ValueIdx.contrEquiv1_symm_val dot_S200000x128_S128x1_S200000x1_1_0_0_1_n_n 128 rfl rfl k
  have el : dot_S200000x128_S128x1_S200000x1_1_0_0_1_n_n.lhsIdx i ((ValueIdx.contrEquiv1 dot_S200000x128_S128x1_S200000x1_1_0_0_1_n_n 128 rfl rfl).symm k)
      = ix2 (⟨(i 0).val, idx2_lt0 i⟩ : Fin 200000) k := funext fun a => Fin.ext (by
    match a with
    | ⟨0, _⟩ => exact lhs_main_v84_0 _ _
    | ⟨1, _⟩ => exact (lhs_main_v84_1 _ _).trans hk)
  have er : dot_S200000x128_S128x1_S200000x1_1_0_0_1_n_n.rhsIdx i ((ValueIdx.contrEquiv1 dot_S200000x128_S128x1_S200000x1_1_0_0_1_n_n 128 rfl rfl).symm k)
      = ix2 k (⟨(i 1).val, idx2_lt1 i⟩ : Fin 1) := funext fun a => Fin.ext (by
    match a with
    | ⟨0, _⟩ => exact (rhs_main_v84_0 _ _).trans hk
    | ⟨1, _⟩ => exact rhs_main_v84_1 _ _)
  rw [el, er]

/-- A sum over 256 coordinates is the sum over the first 128 plus the sum over the last 128. -/
theorem sum_256 (f : Fin 256 → EReal) :
    ∑ k : Fin 256, f k
      = (∑ k : Fin 128, f ⟨k.val, Nat.lt_trans k.isLt (by decide)⟩) + ∑ k : Fin 128, f ⟨128 + k.val, by have := k.isLt; omega⟩ :=
  Fin.sum_univ_add (a := 128) (b := 128) (f := (f : Fin (128 + 128) → EReal))

/-- The two row blocks joined along the feature axis, at one of the first 128 features: the first block. -/
theorem cat_lo (a b : FVec Ideal S200000x128 .f32) (r : Fin 200000) (k : Fin 128) :
    concatenate S200000x256 1 [⟨S200000x128, a⟩, ⟨S200000x128, b⟩] concatenates_S200000x128_S200000x128_S200000x256_d1
      (ix2 r (⟨k.val, Nat.lt_trans k.isLt (by decide)⟩ : Fin 256)) = a (ix2 r k) :=
  concatenate_pair_apply_left (t := S200000x256) (s₁ := S200000x128) (s₂ := S200000x128) 1 a b
    concatenates_S200000x128_S200000x128_S200000x256_d1 (ix2 r (⟨k.val, Nat.lt_trans k.isLt (by decide)⟩ : Fin 256)) rfl (ix2 r k)
    (fun c => match c with | ⟨0, _⟩ => rfl | ⟨1, _⟩ => rfl)

/-- The two row blocks joined along the feature axis, at one of the last 128 features: the second block. -/
theorem cat_hi (a b : FVec Ideal S200000x128 .f32) (r : Fin 200000) (k : Fin 128) :
    concatenate S200000x256 1 [⟨S200000x128, a⟩, ⟨S200000x128, b⟩] concatenates_S200000x128_S200000x128_S200000x256_d1
      (ix2 r (⟨128 + k.val, by have := k.isLt; omega⟩ : Fin 256)) = b (ix2 r k) :=
  concatenate_pair_apply_right (t := S200000x256) (s₁ := S200000x128) (s₂ := S200000x128) 1 a b
    concatenates_S200000x128_S200000x128_S200000x256_d1 (ix2 r (⟨128 + k.val, by have := k.isLt; omega⟩ : Fin 256)) rfl rfl (ix2 r k)
    (fun c => match c with | ⟨0, _⟩ => fun _ => rfl | ⟨1, _⟩ => fun h => absurd rfl h)
    (Nat.add_comm k.val 128)

/-- The scorer's hidden layer at an entry: the joined rows against W3ᵀ split into the first row against the first 128
    input columns of W3 and the second row against the last 128, plus the bias, rectified. -/
theorem hidden_apply (a b : FVec Ideal S200000x128 .f32) (w3 : FVec Ideal S128x256 .f32) (b3 : FVec Ideal S128 .f32)
    (i : S200000x128.Idx) :
    maximumf (addf (Host.dotGeneral (φ₁ := .f32) (φ₂ := .f32) dot_S200000x256_S256x128_S200000x128_1_0_0_1_n_n none
        (concatenate S200000x256 1 [⟨S200000x128, a⟩, ⟨S200000x128, b⟩] concatenates_S200000x128_S200000x128_S200000x256_d1)
        (val_main_v77 (F := Ideal) w3)) (val_main_v80 (F := Ideal) b3)) (val_main_call2_v0 (F := Ideal)) i
      = rowLayer (fun k => a (ix2 (⟨(i 0).val, idx2_lt0 i⟩ : Fin 200000) k)) (fun k => b (ix2 (⟨(i 0).val, idx2_lt0 i⟩ : Fin 200000) k))
          (w3lo w3) (w3hi w3) b3 ⟨(i 1).val, idx2_lt1 i⟩ := by
  rw [maximumf_apply, addf_apply, dot2_apply, sum_256, val_main_v80_apply, val_main_v79_apply, val_main_call2_v0_apply,
    val_main_call2_cst_apply]
  unfold rowLayer
  have elo : ∀ k : Fin 128, val_main_v77 (F := Ideal) w3 (ix2 (⟨k.val, Nat.lt_trans k.isLt (by decide)⟩ : Fin 256) (⟨(i 1).val, idx2_lt1 i⟩ : Fin 128))
      = w3lo w3 (ix2 k (⟨(i 1).val, idx2_lt1 i⟩ : Fin 128)) := fun k => by
    rw [val_main_v77_apply]; unfold w3lo
    exact congrArg w3 (by funext c; match c with | ⟨0, _⟩ => rfl | ⟨1, _⟩ => rfl)
  have ehi : ∀ k : Fin 128, val_main_v77 (F := Ideal) w3 (ix2 (⟨128 + k.val, by have := k.isLt; omega⟩ : Fin 256) (⟨(i 1).val, idx2_lt1 i⟩ : Fin 128))
      = w3hi w3 (ix2 k (⟨(i 1).val, idx2_lt1 i⟩ : Fin 128)) := fun k => by
    rw [val_main_v77_apply]; unfold w3hi
    exact congrArg w3 (by funext c; match c with | ⟨0, _⟩ => rfl | ⟨1, _⟩ => rfl)
  have eb : idx_main_v79 (idx_main_v80 i) = ix1 (⟨(i 1).val, idx2_lt1 i⟩ : Fin 128) := by
    funext c; match c with | ⟨0, _⟩ => rfl
  rw [eb]
  refine congrArg (fun s => max (s + b3 (ix1 (⟨(i 1).val, idx2_lt1 i⟩ : Fin 128))) zeroF) ?_
  refine congrArg₂ (· + ·) (Finset.sum_congr rfl fun k _ => ?_) (Finset.sum_congr rfl fun k _ => ?_)
  · rw [cat_lo, elo]
  · rw [cat_hi, ehi]

/-- The score before the logistic function: the hidden row against W4ᵀ (one column) plus the output bias. -/
theorem pre_apply (a b : FVec Ideal S200000x128 .f32) (w3 : FVec Ideal S128x256 .f32) (b3 : FVec Ideal S128 .f32)
    (w4 : FVec Ideal S1x128 .f32) (b4 : FVec Ideal S1 .f32) (i : S200000x1.Idx) :
    addf (Host.dotGeneral (φ₁ := .f32) (φ₂ := .f32) dot_S200000x128_S128x1_S200000x1_1_0_0_1_n_n none
        (maximumf (addf (Host.dotGeneral (φ₁ := .f32) (φ₂ := .f32) dot_S200000x256_S256x128_S200000x128_1_0_0_1_n_n none
          (concatenate S200000x256 1 [⟨S200000x128, a⟩, ⟨S200000x128, b⟩] concatenates_S200000x128_S200000x128_S200000x256_d1)
          (val_main_v77 (F := Ideal) w3)) (val_main_v80 (F := Ideal) b3)) (val_main_call2_v0 (F := Ideal)))
        (val_main_v83 (F := Ideal) w4)) (val_main_v86 (F := Ideal) b4) i
      = (∑ j : Fin 128, rowLayer (fun k => a (ix2 (⟨(i 0).val, idx2_lt0 i⟩ : Fin 200000) k))
            (fun k => b (ix2 (⟨(i 0).val, idx2_lt0 i⟩ : Fin 200000) k)) (w3lo w3) (w3hi w3) b3 j * trCol w4 (ix2 j (0 : Fin 1)))
          + b4 (ix1 (0 : Fin 1)) := by
  rw [addf_apply, dot3_apply, val_main_v86_apply, val_main_v85_apply]
  have eb : idx_main_v85 (idx_main_v86 i) = ix1 (0 : Fin 1) := by
    funext c; match c with | ⟨0, _⟩ => rfl
  rw [eb]
  refine congrArg (· + b4 (ix1 (0 : Fin 1))) (Finset.sum_congr rfl fun j _ => ?_)
  have ew : val_main_v83 (F := Ideal) w4 (ix2 j (⟨(i 1).val, idx2_lt1 i⟩ : Fin 1)) = trCol w4 (ix2 j (0 : Fin 1)) := by
    rw [val_main_v83_apply]; unfold trCol
    exact congrArg w4 (by
      funext c
      match c with
      | ⟨0, _⟩ => exact Fin.ext (by have := idx2_lt1 i; show (i 1).val = 0; omega)
      | ⟨1, _⟩ => rfl)
  rw [hidden_apply, ew]

/-- `1 / (1 + exp (-s))`, both ones the pattern `0x3F800000`, is the logistic function of `s`. -/
theorem logistic_apply (s : FVec Ideal S200000x1 .f32) (i : S200000x1.Idx) :
    Host.divf (val_main_v92 (F := Ideal)) (addf (val_main_v90 (F := Ideal)) (Host.exp (Host.negf s))) i = Ideal.logistic (s i) := by
  have h92 : val_main_v92 (F := Ideal) i = (1 : EReal) := by
    rw [val_main_v92_apply, val_main_cst_15_apply]; exact Ideal.ofBits_one_f32
  have h90 : val_main_v90 (F := Ideal) i = (1 : EReal) := by
    rw [val_main_v90_apply, val_main_cst_14_apply]; exact Ideal.ofBits_one_f32
  show Ideal.div (val_main_v92 (F := Ideal) i) (val_main_v90 (F := Ideal) i + Ideal.exp (-(s i))) = Ideal.logistic (s i)
  rw [h92, h90]
  rfl

/-- The scorer over variables: from two row blocks `a`, `b` to `score a b w3 b3 w4 b4`. -/
theorem score_eq (a b : FVec Ideal S200000x128 .f32) (w3 : FVec Ideal S128x256 .f32) (b3 : FVec Ideal S128 .f32)
    (w4 : FVec Ideal S1x128 .f32) (b4 : FVec Ideal S1 .f32) :
    Host.divf (val_main_v92 (F := Ideal)) (addf (val_main_v90 (F := Ideal)) (Host.exp (Host.negf
      (addf (Host.dotGeneral (φ₁ := .f32) (φ₂ := .f32) dot_S200000x128_S128x1_S200000x1_1_0_0_1_n_n none
        (maximumf (addf (Host.dotGeneral (φ₁ := .f32) (φ₂ := .f32) dot_S200000x256_S256x128_S200000x128_1_0_0_1_n_n none
          (concatenate S200000x256 1 [⟨S200000x128, a⟩, ⟨S200000x128, b⟩] concatenates_S200000x128_S200000x128_S200000x256_d1)
          (val_main_v77 (F := Ideal) w3)) (val_main_v80 (F := Ideal) b3)) (val_main_call2_v0 (F := Ideal)))
        (val_main_v83 (F := Ideal) w4)) (val_main_v86 (F := Ideal) b4)))))
      = score a b w3 b3 w4 b4 := by
  funext i
  rw [logistic_apply, pre_apply]
  rfl

/-! ## The whole reference -/

/-- The reference's last stage, as a function of the thirteen arguments, is `whole`. -/
theorem val_eq_whole (x0 : FVec Ideal S50000x128 .f32) (x1 : IVec S2x500000 32) (x2 : IVec S200000x2 32)
    (x3 x4 : FVec Ideal S128x128 .f32) (x5 : FVec Ideal S128 .f32) (x6 x7 : FVec Ideal S128x128 .f32) (x8 : FVec Ideal S128 .f32)
    (x9 : FVec Ideal S128x256 .f32) (x10 : FVec Ideal S128 .f32) (x11 : FVec Ideal S1x128 .f32) (x12 : FVec Ideal S1 .f32) :
    val_main_v94 (F := Ideal) x0 x1 x2 x3 x4 x5 x6 x7 x8 x9 x10 x11 x12 = whole x0 x1 x2 x3 x4 x5 x6 x7 x8 x9 x10 x11 x12 := by
  unfold whole scores
  rw [← round1 x0 x1 x3 x4 x5, ← round2 x0 x1 x3 x4 x5 x6 x7 x8, ← pick0 x0 x1 x2 x3 x4 x5 x6 x7 x8, ← pick1 x0 x1 x2 x3 x4 x5 x6 x7 x8]
  unfold val_main_v94
  exact congrArg (fun y => shapeCast _ y shapeCasts_S200000x1_S200000)
    (score_eq (val_main_v66 (F := Ideal) x0 x1 x2 x3 x4 x5 x6 x7 x8) (val_main_v75 (F := Ideal) x0 x1 x2 x3 x4 x5 x6 x7 x8) x9 x10 x11 x12)

/-- The reference's result buffer holds `whole` of the thirteen argument buffers. -/
theorem ref_eq (m : (ℓ : Loc nD τ sig) → Buf (Elt Ideal) ℓ) (c : Dev nD) :
    Cert.ReferenceIdeal.Value.res_main_v94 (F := Ideal) m c
      = whole (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) :=
  (val_main_v94_eq m c).trans (val_eq_whole _ _ _ _ _ _ _ _ _ _ _ _ _)

end Cert.Sage

end
-- ==== Proof.lean ====
/-
  Two rounds of a graph layer and a pair scorer, computed by three tiled kernels among host operations, against the
  plain array program.

  Each round takes the mean of every node's neighbours' rows (rows gathered by source node, summed by destination node,
  divided by the clamped neighbour count) and applies a dense layer max (agg · Wlᵀ + h · Wrᵀ + b) 0; the scorer gathers
  the two rows of every pair, applies max (a · W3aᵀ + b · W3bᵀ + b3) 0, one output column, a bias, and the logistic
  function. The kernel program runs each dense layer and the scorer as a kernel over blocks of 5000 rows (the weights
  transposed on the host, the scorer's weight first cut into its two halves); the reference multiplies the joined rows by
  the whole transposed weight and spells the logistic function 1 / (1 + exp (-s)).

  On the extended reals the two programs compute one function, the specification's whole (Proof/Spec.lean):
  * an entry of a dense layer depends on its own row only, so the layer of the blocks is the block of the layer, and
    the blocks tile the rows (Proof/KRegion0, KRegion1, KRegion2, over the bodies read at an index in Proof/KBody0,
    KBody1, KBody2);
  * the host stretches between the kernels apply the same gathers, scatter-additions and divisions as the reference to
    the same operands, and are never opened (Proof/KHost, KValue);
  * the sum over the 256 joined features is the sum over the first 128 plus the sum over the last 128: addition of
    extended reals is associative and commutative, so no finiteness is used and the precondition is never opened
    (Proof/RefSide);
  * rounding to bf16 before a product is the identity on ideal values, and nothing was rewritten between the kernel
    program and its idealization.
-/
import proofs.«104326_j68582037782752_1_alg».proof.Defs
import proofs.«104326_j68582037782752_1_alg».proof.Proof.Gen.Kernel
import proofs.«104326_j68582037782752_1_alg».proof.Proof.Gen.Kernel.Skeleton
import proofs.«104326_j68582037782752_1_alg».proof.Proof.Gen.Kernel.Launch
import proofs.«104326_j68582037782752_1_alg».proof.Proof.Gen.Kernel.Points
import proofs.«104326_j68582037782752_1_alg».proof.Proof.Gen.Kernel.Frame
import proofs.«104326_j68582037782752_1_alg».proof.Proof.Gen.KernelIdeal
import proofs.«104326_j68582037782752_1_alg».proof.Proof.Gen.KernelIdeal.Skeleton
import proofs.«104326_j68582037782752_1_alg».proof.Proof.Gen.KernelIdeal.Launch
import proofs.«104326_j68582037782752_1_alg».proof.Proof.Gen.KernelIdeal.Points
import proofs.«104326_j68582037782752_1_alg».proof.Proof.Gen.KernelIdeal.Frame
import proofs.«104326_j68582037782752_1_alg».proof.Proof.Gen.ReferenceIdeal
import proofs.«104326_j68582037782752_1_alg».proof.Proof.Gen.ReferenceIdeal.Run
import proofs.«104326_j68582037782752_1_alg».proof.Proof.Gen.ReferenceIdeal.Read
import proofs.«104326_j68582037782752_1_alg».proof.Proof.Gen.Pre_finite_inputs
import proofs.«104326_j68582037782752_1_alg».proof.Proof.KRun
import proofs.«104326_j68582037782752_1_alg».proof.Proof.KValue
import proofs.«104326_j68582037782752_1_alg».proof.Proof.RefSide
import Idealize.ShloMosaic.Adequacy
import Idealize.ShloMosaic.Init

noncomputable section

namespace Cert.Proof

open Idealize.ShloMosaic Idealize.ShloMosaic.TcCoe Idealize.SL.Sem

/-- The kernel program as printed runs to the end without a fault and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel program and its idealization. -/
theorem preserves : Cert.preserves_Kernel_KernelIdeal := trivial

/-- From memories that agree on the thirteen arguments both programs end with the specification's scores of those
    arguments in their result buffers. -/
theorem algebraic : Cert.algebraic_KernelIdeal_ReferenceIdeal := by
  intro m ρ m' ρ' _ hagree
  refine ⟨fun c => Cert.Sage.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.Sage.kernel_result m ρ c), (h c).2⟩) (Cert.KernelIdeal.Gen.run_named m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.Sage.ref_eq m' c, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
